-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x100 : Shape := ⟨2, ![65536, 100]⟩
abbrev S100x512 : Shape := ⟨2, ![100, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x100 : S_.BroadcastsInDim S65536x100 (![] : Fin 0 → Fin S65536x100.rank)
  reducesTo_S65536x100_S_d0_1 : S65536x100.ReducesTo [0, 1] S_
  bcast_S_S100x512 : S_.BroadcastsInDim S100x512 (![] : Fin 0 → Fin S100x512.rank)
  reducesTo_S100x512_S_d0_1 : S100x512.ReducesTo [0, 1] S_

variable [Facts]

def fn {F : FTy → Type} [FloatOps F] (main_arg0 : FVec F S65536x512 .f32) (main_arg1 : FVec F S65536x100 .f32) (main_arg2 : FVec F S100x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x100 .f32 := Host.absf main_arg1
  let main_cst_0 : FVec F S_ .f32 := constant S_ .f32 0x7F800000#32
  let main_v5 : FVec F S65536x100 .f32 := broadcastInDim S65536x100 ![] bcast_S_S65536x100 main_cst_0
  let main_v6 : IVec S65536x100 1 := cmpf .olt main_v4 main_v5
  let main_c_1 : IVec S_ 1 := constantI S_ 1 1#1
  let main_v7 : IVec S_ 1 := (fun x v => Host.reduce IntOp.andi x v reducesTo_S65536x100_S_d0_1 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  main_v13
-- ==== Kernel.lean ====
abbrev S65536x512 : Shape := ⟨2, ![65536, 512]⟩
abbrev S65536x100 : Shape := ⟨2, ![65536, 100]⟩
abbrev S100x512 : Shape := ⟨2, ![100, 512]⟩
abbrev S65536 : Shape := ⟨1, ![65536]⟩
abbrev S2x100x512 : Shape := ⟨3, ![2, 100, 512]⟩
abbrev S2x1x100 : Shape := ⟨3, ![2, 1, 100]⟩
abbrev S2048x512 : Shape := ⟨2, ![2048, 512]⟩
abbrev S2048x100 : Shape := ⟨2, ![2048, 100]⟩
abbrev S2048 : Shape := ⟨1, ![2048]⟩
abbrev S1x100x512 : Shape := ⟨3, ![1, 100, 512]⟩
abbrev S1x1x100 : Shape := ⟨3, ![1, 1, 100]⟩
abbrev S1x100 : Shape := ⟨2, ![1, 100]⟩
abbrev S100 : Shape := ⟨1, ![100]⟩
abbrev S_ : Shape := ⟨0, ![]⟩
abbrev S100x1 : Shape := ⟨2, ![100, 1]⟩
abbrev S65536x1 : Shape := ⟨2, ![65536, 1]⟩

abbrev nBuf : Space → Nat
  | .hbm => 27
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x100, .f32⟩
  | .hbm, ⟨2, _⟩ => ⟨S100x512, .f32⟩
  | .hbm, ⟨3, _⟩ => ⟨S65536, .f32⟩
  | .hbm, ⟨4, _⟩ => ⟨S2x100x512, .f32⟩
  | .hbm, ⟨5, _⟩ => ⟨S2x1x100, .f32⟩
  | .hbm, ⟨6, _⟩ => ⟨S1x100x512, .f32⟩
  | .hbm, ⟨7, _⟩ => ⟨S100x512, .f32⟩
  | .hbm, ⟨8, _⟩ => ⟨S1x100x512, .f32⟩
  | .hbm, ⟨9, _⟩ => ⟨S100x512, .f32⟩
  | .hbm, ⟨10, _⟩ => ⟨S100x512, .f32⟩
  | .hbm, ⟨11, _⟩ => ⟨S1x1x100, .f32⟩
  | .hbm, ⟨12, _⟩ => ⟨S100, .f32⟩
  | .hbm, ⟨13, _⟩ => ⟨S1x1x100, .f32⟩
  | .hbm, ⟨14, _⟩ => ⟨S100, .f32⟩
  | .hbm, ⟨15, _⟩ => ⟨S100, .f32⟩
  | .hbm, ⟨16, _⟩ => ⟨S_, .f32⟩
  | .hbm, ⟨17, _⟩ => ⟨S100, .f32⟩
  | .hbm, ⟨18, _⟩ => ⟨S100, .f32⟩
  | .hbm, ⟨19, _⟩ => ⟨S_, .f32⟩
  | .hbm, ⟨20, _⟩ => ⟨S100x512, .f32⟩
  | .hbm, ⟨21, _⟩ => ⟨S100x512, .f32⟩
  | .hbm, ⟨22, _⟩ => ⟨S100x1, .f32⟩
  | .hbm, ⟨23, _⟩ => ⟨S100x512, .f32⟩
  | .hbm, ⟨24, _⟩ => ⟨S100x512, .f32⟩
  | .hbm, ⟨25, _⟩ => ⟨S100x512, .f32⟩
  | .hbm, ⟨26, _⟩ => ⟨S65536x1, .f32⟩
  | .local _ .vmem, ⟨0, _⟩ => ⟨S2048x512, .f32⟩
  | .local _ .vmem, ⟨1, _⟩ => ⟨S2048x512, .f32⟩
  | .local _ .vmem, ⟨2, _⟩ => ⟨S2048x100, .f32⟩
  | .local _ .vmem, ⟨3, _⟩ => ⟨S2048x100, .f32⟩
  | .local _ .vmem, ⟨4, _⟩ => ⟨S100x512, .f32⟩
  | .local _ .vmem, ⟨5, _⟩ => ⟨S2048, .f32⟩
  | .local _ .vmem, ⟨6, _⟩ => ⟨S2048, .f32⟩
  | .local _ .vmem, ⟨7, _⟩ => ⟨S1x100x512, .f32⟩
  | .local _ .vmem, ⟨8, _⟩ => ⟨S1x100x512, .f32⟩
  | .local _ .vmem, ⟨9, _⟩ => ⟨S1x1x100, .f32⟩
  | .local _ .vmem, ⟨10, _⟩ => ⟨S1x1x100, .f32⟩
  | .local _ .vmem, ⟨11, _⟩ => ⟨S100x512, .f32⟩
  | .local _ .vmem, ⟨12, _⟩ => ⟨S1x100, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S100x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x100x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S100x512_S100x512_0_0 : ∀ a, (![0, 0] : Fin 2 → Nat) a + S100x512.size a ≤ S100x512.size a
  h_S100x512 : 0 < S100x512.numel
  shapeCasts_S100x512_S100x512 : S100x512.ShapeCasts S100x512
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S2048x100_S2048x100_0_0 : ∀ a, (![0, 0] : Fin 2 → Nat) a + S2048x100.size a ≤ S2048x100.size a
  h_S2048x100 : 0 < S2048x100.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  reduces_S2048x512_S2048 : S2048x512.Reduces [1] S2048
  inb_S2048_S2048_0 : ∀ a, (![0] : Fin 1 → Nat) a + S2048.size a ≤ S2048.size a
  h_S2048 : 0 < S2048.numel
  reduces_S2048x100_S100 : S2048x100.Reduces [0] S100
  shapeCasts_S100_S1x100 : S100.ShapeCasts S1x100
  shapeCasts_S100x512_S1x100x512 : S100x512.ShapeCasts S1x100x512
  inb_S1x100x512_S1x100x512_0_0_0 : ∀ a, (![0, 0, 0] : Fin 3 → Nat) a + S1x100x512.size a ≤ S1x100x512.size a
  h_S1x100x512 : 0 < S1x100x512.numel
  shapeCasts_S1x100_S1x1x100 : S1x100.ShapeCasts S1x1x100
  inb_S1x1x100_S1x1x100_0_0_0 : ∀ a, (![0, 0, 0] : Fin 3 → Nat) a + S1x1x100.size a ≤ S1x1x100.size a
  h_S1x1x100 : 0 < S1x1x100.numel
  slices_S2x100x512_S1x100x512_0_0_0 : S2x100x512.Slices ![0, 0, 0] S1x100x512
  shapeCasts_S1x100x512_S100x512 : S1x100x512.ShapeCasts S100x512
  slices_S2x100x512_S1x100x512_1_0_0 : S2x100x512.Slices ![1, 0, 0] S1x100x512
  slices_S2x1x100_S1x1x100_0_0_0 : S2x1x100.Slices ![0, 0, 0] S1x1x100
  shapeCasts_S1x1x100_S100 : S1x1x100.ShapeCasts S100
  slices_S2x1x100_S1x1x100_1_0_0 : S2x1x100.Slices ![1, 0, 0] S1x1x100
  bcast_S_S100 : S_.BroadcastsInDim S100 (![] : Fin 0 → Fin S100.rank)
  bcast_S_S100x512 : S_.BroadcastsInDim S100x512 (![] : Fin 0 → Fin S100x512.rank)
  bcast_S100_S100x1_0 : S100.BroadcastsInDim S100x1 (![0] : Fin 1 → Fin S100x1.rank)
  bcast_S100x1_S100x512_0_1 : S100x1.BroadcastsInDim S100x512 (![0, 1] : Fin 2 → Fin S100x512.rank)
  shapeCasts_S65536_S65536x1 : S65536.ShapeCasts S65536x1
  dot_S2048x100_S100x512_S2048x512_1_0_0_1_n_n_wf : DotDims.WF S2048x100 S100x512 S2048x512 [1] [0] [0] [1] [] []
  dot_S2048x100_S2048x512_S100x512_0_0_1_1_n_n_wf : DotDims.WF S2048x100 S2048x512 S100x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x100.size a ≤ S65536x100.size a
  hwx0_1 : ∀ i : grid0.Coords, EltTy.bits .f32 = 32 ∨ (Rect.block (s := S65536x100) S2048x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x512.size a ≤ S100x512.size a
  hwx0_2 : ∀ i : grid0.Coords, EltTy.bits .f32 = 32 ∨ (Rect.block (s := S100x512) S100x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S65536.size a
  hwx0_3 : ∀ i : grid0.Coords, EltTy.bits .f32 = 32 ∨ (Rect.block (s := S65536) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x100x512.size a ≤ S2x100x512.size a
  hwx0_4 : ∀ i : grid0.Coords, EltTy.bits .f32 = 32 ∨ (Rect.block (s := S2x100x512) S1x100x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x100.size a ≤ S2x1x100.size a
  hwx0_5 : ∀ i : grid0.Coords, EltTy.bits .f32 = 32 ∨ (Rect.block (s := S2x1x100) S1x1x100.size (cc0_transform_5 i) (hinb0_5 i)).WholeWords (EltTy.packing .f32)

variable [Facts₀]

def dot_S2048x100_S100x512_S2048x512_1_0_0_1_n_n : DotDims S2048x100 S100x512 S2048x512 where
  lhsContracting := [1]
  rhsContracting := [0]
  lhsNonContracting := [0]
  rhsNonContracting := [1]
  lhsBatch := []
  rhsBatch := []
  wf := dot_S2048x100_S100x512_S2048x512_1_0_0_1_n_n_wf
def dot_S2048x100_S2048x512_S100x512_0_0_1_1_n_n : DotDims S2048x100 S2048x512 S100x512 where
  lhsContracting := [0]
  rhsContracting := [0]
  lhsNonContracting := [1]
  rhsNonContracting := [1]
  lhsBatch := []
  rhsBatch := []
  wf := dot_S2048x100_S2048x512_S100x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x100x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S65536x512 : Shape := ⟨2, ![65536, 512]⟩
abbrev S65536x100 : Shape := ⟨2, ![65536, 100]⟩
abbrev S100x512 : Shape := ⟨2, ![100, 512]⟩
abbrev S100x65536 : Shape := ⟨2, ![100, 65536]⟩
abbrev S_ : Shape := ⟨0, ![]⟩
abbrev S100 : Shape := ⟨1, ![100]⟩
abbrev S100x1 : Shape := ⟨2, ![100, 1]⟩
abbrev S65536 : Shape := ⟨1, ![65536]⟩
abbrev S65536x1 : Shape := ⟨2, ![65536, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x100, .f32⟩
  | .hbm, ⟨2, _⟩ => ⟨S100x512, .f32⟩
  | .hbm, ⟨3, _⟩ => ⟨S65536x512, .f32⟩
  | .hbm, ⟨4, _⟩ => ⟨S65536x512, .f32⟩
  | .hbm, ⟨5, _⟩ => ⟨S100x65536, .f32⟩
  | .hbm, ⟨6, _⟩ => ⟨S100x512, .f32⟩
  | .hbm, ⟨7, _⟩ => ⟨S_, .f32⟩
  | .hbm, ⟨8, _⟩ => ⟨S100, .f32⟩
  | .hbm, ⟨9, _⟩ => ⟨S100x1, .f32⟩
  | .hbm, ⟨10, _⟩ => ⟨S_, .f32⟩
  | .hbm, ⟨11, _⟩ => ⟨S100x1, .f32⟩
  | .hbm, ⟨12, _⟩ => ⟨S100x1, .f32⟩
  | .hbm, ⟨13, _⟩ => ⟨S100x512, .f32⟩
  | .hbm, ⟨14, _⟩ => ⟨S100x512, .f32⟩
  | .hbm, ⟨15, _⟩ => ⟨S_, .f32⟩
  | .hbm, ⟨16, _⟩ => ⟨S100x512, .f32⟩
  | .hbm, ⟨17, _⟩ => ⟨S100x512, .f32⟩
  | .hbm, ⟨18, _⟩ => ⟨S100x512, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536, .f32⟩
  | .hbm, ⟨23, _⟩ => ⟨S65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S65536x100_S100x65536_1_0 : S65536x100.Transposes [1, 0] S100x65536
  reducesTo_S65536x100_S100_d0 : S65536x100.ReducesTo [0] S100
  h_S_ : 0 < S_.numel
  bcast_S100_S100x1_0 : S100.BroadcastsInDim S100x1 (![0] : Fin 1 → Fin S100x1.rank)
  bcast_S_S100x1 : S_.BroadcastsInDim S100x1 (![] : Fin 0 → Fin S100x1.rank)
  bcast_S100x1_S100x512_0_1 : S100x1.BroadcastsInDim S100x512 (![0, 1] : Fin 2 → Fin S100x512.rank)
  bcast_S_S100x512 : S_.BroadcastsInDim S100x512 (![] : Fin 0 → Fin S100x512.rank)
  reducesTo_S65536x512_S65536_d1 : S65536x512.ReducesTo [1] S65536
  bcast_S65536_S65536x1_0 : S65536.BroadcastsInDim S65536x1 (![0] : Fin 1 → Fin S65536x1.rank)
  dot_S65536x100_S100x512_S65536x512_1_0_0_1_n_n_wf : DotDims.WF S65536x100 S100x512 S65536x512 [1] [0] [0] [1] [] []
  dot_S100x65536_S65536x512_S100x512_1_0_0_1_n_n_wf : DotDims.WF S100x65536 S65536x512 S100x512 [1] [0] [0] [1] [] []

variable [Facts₀]

def dot_S65536x100_S100x512_S65536x512_1_0_0_1_n_n : DotDims S65536x100 S100x512 S65536x512 where
  lhsContracting := [1]
  rhsContracting := [0]
  lhsNonContracting := [0]
  rhsNonContracting := [1]
  lhsBatch := []
  rhsBatch := []
  wf := dot_S65536x100_S100x512_S65536x512_1_0_0_1_n_n_wf
def dot_S100x65536_S65536x512_S100x512_1_0_0_1_n_n : DotDims S100x65536 S65536x512 S100x512 where
  lhsContracting := [1]
  rhsContracting := [0]
  lhsNonContracting := [0]
  rhsNonContracting := [1]
  lhsBatch := []
  rhsBatch := []
  wf := dot_S100x65536_S65536x512_S100x512_1_0_0_1_n_n_wf

class Facts : Prop extends Facts₀ where

variable [Facts]
-- ==== Proof.Spec.lean ====
/-
  The two results as functions of the three argument arrays, index by index, in the two arrangements the two
  programs compute them in. Written X = features [65536, 512], H = onehot [65536, 100], Ce = centers [100, 512].

  Both programs form, for a row b and a lane d, the selected centre  sel b d = ∑_c H[b,c] · Ce[c,d]  and the
  difference  dif b d = sel b d - X[b,d].

  * result[b] is the row's sum of squared differences. One program squares  sel - X, the other  X - sel.
  * new_centers[c,d] = Ce[c,d] - (a half of the class's summed differences) / (the class's count plus one), where the
    summed differences are  ∑_b H[b,c] · dif b d  and the count is  ∑_b H[b,c].  One program halves the quotient, the
    other the dividend; one sums the 65536 rows at once, the other as 2 halves of 16 tiles of 2048 rows.

  Rows are also read at natural numbers (zero past the last row), so that a tile's rows  s·2048 + r  and a partial
  sum over the first k tiles are plain sums over ranges.
-/
import Idealize.ShloMosaic.PureOps.Ideal
import Idealize.ShloMosaic.Lib.ValueIdx

noncomputable section

namespace Cert.CenterLoss

open Idealize.ShloMosaic Idealize.ShloMosaic.ValueIdx

/-- The three argument arrays at the ideal values. -/
abbrev ArrX := (⟨2, ![65536, 512]⟩ : Shape).Idx → EReal
abbrev ArrH := (⟨2, ![65536, 100]⟩ : Shape).Idx → EReal
abbrev ArrC := (⟨2, ![100, 512]⟩ : Shape).Idx → EReal

/-- The float words the two programs share: +0.0, 1.0 and 0.5. -/
abbrev zeroW : EReal := Ideal.ofBits .f32 0x00000000#32
abbrev oneW : EReal := Ideal.ofBits .f32 0x3F800000#32
abbrev halfW : EReal := Ideal.ofBits .f32 0x3F000000#32

variable (X : ArrX) (H : ArrH) (Ce : ArrC)

/-- The selected centre of row `b` at lane `d`: row `b` of `H` against column `d` of `Ce`. -/
def sel (b : Fin 65536) (d : Fin 512) : EReal := ∑ c : Fin 100, H (ix2 b c) * Ce (ix2 c d)

/-- The difference: the selected centre minus the feature. -/
def dif (b : Fin 65536) (d : Fin 512) : EReal := sel H Ce b d - X (ix2 b d)

/-! ## The arrangement of the program that sums all rows at once -/

/-- A row's sum of squares of (feature minus selected centre), from the zero word. -/
def refResult : (⟨2, ![65536, 1]⟩ : Shape).Idx → EReal := fun i =>
  zeroW + ∑ d : Fin 512, (X (ix2 (i 0) d) - sel H Ce (i 0) d) * (X (ix2 (i 0) d) - sel H Ce (i 0) d)

/-- The centre minus a half of (the class's summed differences over its count plus one). -/
def refCenters : (⟨2, ![100, 512]⟩ : Shape).Idx → EReal := fun i =>
  Ce i - halfW * Ideal.div (∑ b : Fin 65536, H (ix2 b (i 0)) * dif X H Ce b (i 1))
    ((zeroW + ∑ b : Fin 65536, H (ix2 b (i 0))) + oneW)

/-! ## The arrangement of the program that sums tile by tile -/

/-- Row `b` of `H` read at a natural number: zero past the last row. -/
def Hn (b : ℕ) (c : Fin 100) : EReal := if h : b < 65536 then H (ix2 ⟨b, h⟩ c) else 0

/-- The difference read at a natural row: zero past the last row. -/
def difn (b : ℕ) (d : Fin 512) : EReal := if h : b < 65536 then dif X H Ce ⟨b, h⟩ d else 0

/-- Tile `s` (rows `s·2048 … s·2048 + 2047`): its rows' contribution to class `c`'s summed differences at lane `d`. -/
def tileDelta (s : ℕ) (c : Fin 100) (d : Fin 512) : EReal :=
  ∑ r : Fin 2048, Hn H (s * 2048 + r.val) c * difn X H Ce (s * 2048 + r.val) d

/-- Tile `s`'s contribution to class `c`'s count. -/
def tileCount (s : ℕ) (c : Fin 100) : EReal := ∑ r : Fin 2048, Hn H (s * 2048 + r.val) c

/-- Half `q` of the rows (tiles `16q … 16q + 15`): its partial summed differences. -/
def halfDelta (q : ℕ) (c : Fin 100) (d : Fin 512) : EReal := ∑ j ∈ Finset.range 16, tileDelta X H Ce (16 * q + j) c d

/-- Half `q`'s partial count. -/
def halfCount (q : ℕ) (c : Fin 100) : EReal := ∑ j ∈ Finset.range 16, tileCount H (16 * q + j) c

/-- The array of row sums of squares of (selected centre minus feature), [65536]. -/
def rowSq : (⟨1, ![65536]⟩ : Shape).Idx → EReal := fun j => ∑ d : Fin 512, dif X H Ce (j 0) d * dif X H Ce (j 0) d

/-- The array of the two halves' partial summed differences, [2, 100, 512]. -/
def partDelta : (⟨3, ![2, 100, 512]⟩ : Shape).Idx → EReal := fun j => halfDelta X H Ce (j 0).val (j 1) (j 2)

/-- The array of the two halves' partial counts, [2, 1, 100]. -/
def partCount : (⟨3, ![2, 1, 100]⟩ : Shape).Idx → EReal := fun j => halfCount H (j 0).val (j 2)

/-- The first result in this arrangement: the row sums as a column. -/
def tileResult : (⟨2, ![65536, 1]⟩ : Shape).Idx → EReal := fun i => rowSq X H Ce (ix1 (i 0))

/-- The second: the centre minus (a half of the two halves' summed differences) over (the two halves' counts plus one). -/
def tileCenters : (⟨2, ![100, 512]⟩ : Shape).Idx → EReal := fun i =>
  Ce i - Ideal.div (halfW * (halfDelta X H Ce 0 (i 0) (i 1) + halfDelta X H Ce 1 (i 0) (i 1)))
    ((halfCount H 0 (i 0) + halfCount H 1 (i 0)) + oneW)

end Cert.CenterLoss

end
-- ==== Proof.Pieces.lean ====
/-
  What the kernel body leaves, case by case, in the buffers it stores into, as the body's pure payloads of the blocks
  it loaded. The body has three cases by the tile's position k in its half of the rows:
    first (k = 0):   the two running sums are reset to zero, then this tile is added to them;
    middle:          this tile is added to the running sums the tile before left;
    last (k = 15):   as the middle case, and the running sums are then copied to the two partial-table blocks.
  In every case the block of row results is the tile's row sums of squares.
  Each buffer's final contents are the last store that covers it: a whole-buffer store, read back whole.
-/
import proofs.«102487_j2654289789633_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- A whole-buffer rectangle starts at offset zero on every axis (ranks 1, 2, 3). -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Middle tiles -/

/-- A middle tile leaves its row sums of squares in the row-result block. -/
theorem outB3 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : ¬cond0_1 i)
    (x0 : Vec F S2048x512 .f32) (x1 : Vec F S2048x100 .f32) (x2 : Vec F S100x512 .f32) (xs0 : Vec F S100x512 .f32) (xs1 : Vec F S1x100 .f32) :
    out0_B_3 c i a2 h2 a3 h3 a4 h4 a5 h5 a6 h6 a7 h7 a8 h8 a9 h9 hc0 hc1 x0 x1 x2 xs0 xs1 = k0_pay5 x1 x0 x2 := by
  unfold out0_B_3
  rw [View.read_writes_eq_canon _ _ _ (cover0_B_3 c i a2 h2 a3 h3 a4 h4 a5 h5 a6 h6 a7 h7 a8 h8 a9 h9 hc0 hc1 x0 x1 x2 xs0 xs1)]
  unfold kernelRun0_B
  dsimp only
  rw [View.canon_unit_zero hz1]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-- A middle tile leaves, in the running table of summed differences holding `xs0`, `xs0` plus the tile's contribution. -/
theorem soutB0 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : ¬cond0_1 i)
    (x0 : Vec F S2048x512 .f32) (x1 : Vec F S2048x100 .f32) (x2 : Vec F S100x512 .f32) (xs0 : Vec F S100x512 .f32) (xs1 : Vec F S1x100 .f32) :
    sout0_B_0 c i a2 h2 a3 h3 a4 h4 a5 h5 a6 h6 a7 h7 a8 h8 a9 h9 hc0 hc1 x0 x1 x2 xs0 xs1 = k0_pay6 x1 x0 x2 xs0 := by
  unfold sout0_B_0
  rw [View.read_writes_eq_canon _ _ _ (scover0_B_0 c i a2 h2 a3 h3 a4 h4 a5 h5 a6 h6 a7 h7 a8 h8 a9 h9 hc0 hc1 x0 x1 x2 xs0 xs1)]
  unfold kernelRun0_B
  dsimp only
  rw [View.canon_unit_zero hz2]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-- A middle tile leaves, in the running counts holding `xs1`, `xs1` plus the tile's column sums. -/
theorem soutB1 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : ¬cond0_1 i)
    (x0 : Vec F S2048x512 .f32) (x1 : Vec F S2048x100 .f32) (x2 : Vec F S100x512 .f32) (xs0 : Vec F S100x512 .f32) (xs1 : Vec F S1x100 .f32) :
    sout0_B_1 c i a2 h2 a3 h3 a4 h4 a5 h5 a6 h6 a7 h7 a8 h8 a9 h9 hc0 hc1 x0 x1 x2 xs0 xs1 = k0_pay7 x1 xs1 := by
  unfold sout0_B_1
  rw [View.read_writes_eq_canon _ _ _ (scover0_B_1 c i a2 h2 a3 h3 a4 h4 a5 h5 a6 h6 a7 h7 a8 h8 a9 h9 hc0 hc1 x0 x1 x2 xs0 xs1)]
  unfold kernelRun0_B
  dsimp only
  rw [View.canon_unit_zero hz2]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-! ## Last tiles -/

/-- A last tile leaves its row sums of squares in the row-result block. -/
theorem outC3 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : cond0_1 i)
    (x0 : Vec F S2048x512 .f32) (x1 : Vec F S2048x100 .f32) (x2 : Vec F S100x512 .f32) (xs0 : Vec F S100x512 .f32) (xs1 : Vec F S1x100 .f32) :
    out0_C_3 c i a2 h2 a3 h3 a4 h4 a5 h5 a6 h6 a7 h7 a8 h8 a9 h9 hc0 hc1 x0 x1 x2 xs0 xs1 = k0_pay5 x1 x0 x2 := by
  unfold out0_C_3
  rw [View.read_writes_eq_canon _ _ _ (cover0_C_3 c i a2 h2 a3 h3 a4 h4 a5 h5 a6 h6 a7 h7 a8 h8 a9 h9 hc0 hc1 x0 x1 x2 xs0 xs1)]
  unfold kernelRun0_C
  dsimp only
  rw [View.canon_unit_zero hz1]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-- A last tile updates the running table as a middle tile does. -/
theorem soutC0 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : cond0_1 i)
    (x0 : Vec F S2048x512 .f32) (x1 : Vec F S2048x100 .f32) (x2 : Vec F S100x512 .f32) (xs0 : Vec F S100x512 .f32) (xs1 : Vec F S1x100 .f32) :
    sout0_C_0 c i a2 h2 a3 h3 a4 h4 a5 h5 a6 h6 a7 h7 a8 h8 a9 h9 hc0 hc1 x0 x1 x2 xs0 xs1 = k0_pay6 x1 x0 x2 xs0 := by
  unfold sout0_C_0
  rw [View.read_writes_eq_canon _ _ _ (scover0_C_0 c i a2 h2 a3 h3 a4 h4 a5 h5 a6 h6 a7 h7 a8 h8 a9 h9 hc0 hc1 x0 x1 x2 xs0 xs1)]
  unfold kernelRun0_C
  dsimp only
  sl_unfold_words
  rw [View.canon_unit_zero hz2]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-- A last tile updates the running counts as a middle tile does. -/
theorem soutC1 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : cond0_1 i)
    (x0 : Vec F S2048x512 .f32) (x1 : Vec F S2048x100 .f32) (x2 : Vec F S100x512 .f32) (xs0 : Vec F S100x512 .f32) (xs1 : Vec F S1x100 .f32) :
    sout0_C_1 c i a2 h2 a3 h3 a4 h4 a5 h5 a6 h6 a7 h7 a8 h8 a9 h9 hc0 hc1 x0 x1 x2 xs0 xs1 = k0_pay7 x1 xs1 := by
  unfold sout0_C_1
  rw [View.read_writes_eq_canon _ _ _ (scover0_C_1 c i a2 h2 a3 h3 a4 h4 a5 h5 a6 h6 a7 h7 a8 h8 a9 h9 hc0 hc1 x0 x1 x2 xs0 xs1)]
  unfold kernelRun0_C
  dsimp only
  sl_unfold_words
  rw [View.canon_unit_zero hz2]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-- A last tile copies the updated running table, with a leading unit axis, to the partial-table block. -/
theorem outC4 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : cond0_1 i)
    (x0 : Vec F S2048x512 .f32) (x1 : Vec F S2048x100 .f32) (x2 : Vec F S100x512 .f32) (xs0 : Vec F S100x512 .f32) (xs1 : Vec F S1x100 .f32) :
    out0_C_4 c i a2 h2 a3 h3 a4 h4 a5 h5 a6 h6 a7 h7 a8 h8 a9 h9 hc0 hc1 x0 x1 x2 xs0 xs1 = k0_pay8 (k0_pay6 x1 x0 x2 xs0) := by
  unfold out0_C_4
  rw [View.read_writes_eq_canon _ _ _ (cover0_C_4 c i a2 h2 a3 h3 a4 h4 a5 h5 a6 h6 a7 h7 a8 h8 a9 h9 hc0 hc1 x0 x1 x2 xs0 xs1)]
  unfold kernelRun0_C
  dsimp only
  sl_unfold_words
  rw [View.canon_unit_zero hz3, View.readCov_unit_zero (S := S100x512) _ hz2]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-- A last tile copies the updated running counts, with a leading unit axis, to the partial-count block. -/
theorem outC5 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : ¬cond0_0 i) (hc1 : cond0_1 i)
    (x0 : Vec F S2048x512 .f32) (x1 : Vec F S2048x100 .f32) (x2 : Vec F S100x512 .f32) (xs0 : Vec F S100x512 .f32) (xs1 : Vec F S1x100 .f32) :
    out0_C_5 c i a2 h2 a3 h3 a4 h4 a5 h5 a6 h6 a7 h7 a8 h8 a9 h9 hc0 hc1 x0 x1 x2 xs0 xs1 = k0_pay9 (k0_pay7 x1 xs1) := by
  unfold out0_C_5
  rw [View.read_writes_eq_canon _ _ _ (cover0_C_5 c i a2 h2 a3 h3 a4 h4 a5 h5 a6 h6 a7 h7 a8 h8 a9 h9 hc0 hc1 x0 x1 x2 xs0 xs1)]
  unfold kernelRun0_C
  dsimp only
  sl_unfold_words
  rw [View.canon_unit_zero hz3, View.readCov_unit_zero (S := S1x100) _ hz2]
  simp only [View.readAt_eq_ld, h2.read_unread, h3.read_unread, h4.read_unread, h8.read_unread, h9.read_unread, View.ld_unit_zero (S := S2048x100) hz2, View.ld_unit_zero (S := S2048x512) hz2, View.ld_unit_zero (S := S100x512) hz2, View.ld_unit_zero (S := S1x100) hz2]

/-! ## First tiles -/

/-- A first tile leaves its row sums of squares in the row-result block. -/
theorem outA3 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : cond0_0 i) (hc1 : ¬cond0_1 i)
    (x0 : Vec F S2048x512 .f32) (x1 : Vec F S2048x100 .f32) (x2 : Vec F S100x512 .f32) :
    out0_A_3 c i a2 h2 a3 h3 a4 h4 a5 h5 a6 h6 a7 h7 a8 h8 a9 h9 hc0 hc1 x0 x1 x2 = k0_pay5 x1 x0 x2 := by
  unfold out0_A_3
  rw [View.read_writes_eq_canon _ _ _ (cover0_A_3 c i a2 h2 a3 h3 a4 h4 a5 h5 a6 h6 a7 h7 a8 h8 a9 h9 hc0 hc1 x0 x1 x2)]
  unfold kernelRun0_A
  dsimp only
  rw [View.canon_unit_zero hz1]
  simp only [View.readAt_eq_ld, h2.read_unread, h3.read_unread, h4.read_unread, View.ld_unit_zero (S := S2048x100) hz2, View.ld_unit_zero (S := S2048x512) hz2, View.ld_unit_zero (S := S100x512) hz2, View.ld_unit_zero (S := S1x100) hz2]

/-- A first tile resets the running table to zero and adds its contribution. -/
theorem soutA0 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : cond0_0 i) (hc1 : ¬cond0_1 i)
    (x0 : Vec F S2048x512 .f32) (x1 : Vec F S2048x100 .f32) (x2 : Vec F S100x512 .f32) :
    sout0_A_0 c i a2 h2 a3 h3 a4 h4 a5 h5 a6 h6 a7 h7 a8 h8 a9 h9 hc0 hc1 x0 x1 x2 = k0_pay6 x1 x0 x2 k0_pay1 := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  rw [View.canon_cons_unit_zero (S := S100x512) hz2, View.readCov_unit_zero (S := S100x512) _ hz2]
  simp only [View.readAt_eq_ld, h2.read_unread, h3.read_unread, h4.read_unread, View.ld_unit_zero (S := S2048x100) hz2, View.ld_unit_zero (S := S2048x512) hz2, View.ld_unit_zero (S := S100x512) hz2, View.ld_unit_zero (S := S1x100) hz2]

/-- A first tile resets the running counts to zero and adds its column sums. -/
theorem soutA1 (c : Dev nD) (i : grid0.Coords) (a2 : Memref sig .tc .vmem S2048x512 .f32) (h2 : a2.IsWhole) (a3 : Memref sig .tc .vmem S2048x100 .f32) (h3 : a3.IsWhole) (a4 : Memref sig .tc .vmem S100x512 .f32) (h4 : a4.IsWhole) (a5 : Memref sig .tc .vmem S2048 .f32) (h5 : a5.IsWhole) (a6 : Memref sig .tc .vmem S1x100x512 .f32) (h6 : a6.IsWhole) (a7 : Memref sig .tc .vmem S1x1x100 .f32) (h7 : a7.IsWhole) (a8 : Memref sig .tc .vmem S100x512 .f32) (h8 : a8.IsWhole) (a9 : Memref sig .tc .vmem S1x100 .f32) (h9 : a9.IsWhole) (hc0 : cond0_0 i) (hc1 : ¬cond0_1 i)
    (x0 : Vec F S2048x512 .f32) (x1 : Vec F S2048x100 .f32) (x2 : Vec F S100x512 .f32) :
    sout0_A_1 c i a2 h2 a3 h3 a4 h4 a5 h5 a6 h6 a7 h7 a8 h8 a9 h9 hc0 hc1 x0 x1 x2 = k0_pay7 x1 k0_pay2 := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero (S := S1x100) hz2, View.readCov_unit_zero (S := S1x100) _ hz2]
  simp only [View.readAt_eq_ld, h2.read_unread, h3.read_unread, h4.read_unread, View.ld_unit_zero (S := S2048x100) hz2, View.ld_unit_zero (S := S2048x512) hz2, View.ld_unit_zero (S := S100x512) hz2, View.ld_unit_zero (S := S1x100) hz2]

end Cert.KernelIdeal.Pieces

end
-- ==== Proof.Accum.lean ====
/-
  The two running sums the kernel carries from tile to tile, and what each tile writes back.

  After the tile at position t the kernel's two carried buffers hold
    a table [100, 512]: the summed differences of the tiles of t's half of the rows, up to and including t;
    a row   [1, 100]:   the counts of the same tiles.
  They obey: at the first tile of a half (t ≡ 0 mod 16) the sum starts from the zero block with this tile added;
  at any other tile it is the previous tile's sum with this tile added. Every tile writes its row results; only the
  last tile of a half (t ≡ 15 mod 16) writes the two sums out, each with a leading unit axis.
-/
import proofs.«102487_j2654289789633_2_alg».proof.Proof.Pieces

set_option maxRecDepth 16384

noncomputable section

open Idealize.ShloMosaic Idealize.ShloMosaic.TcCoe Idealize.SL.Sem

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The running table of summed differences after the tile at position `t`. -/
def accD (c : Dev nD) (t : Fin cfg0.N) : Vec F S100x512 .f32 := (outsAt0 m c t.val t.isLt).2.2.2.1

theorem accD_def (c : Dev nD) (t : Fin cfg0.N) : accD m c t = (outsAt0 m c t.val t.isLt).2.2.2.1 := rfl

/-- The running counts after the tile at position `t`. -/
def accN (c : Dev nD) (t : Fin cfg0.N) : Vec F S1x100 .f32 := (outsAt0 m c t.val t.isLt).2.2.2.2

theorem accN_def (c : Dev nD) (t : Fin cfg0.N) : accN m c t = (outsAt0 m c t.val t.isLt).2.2.2.2 := rfl

/-- The tile before `t` (itself at position 0, where it is never consulted). -/
abbrev prev (t : Fin cfg0.N) : Fin cfg0.N := ⟨t.val - 1, Nat.lt_of_le_of_lt (Nat.sub_le _ _) t.isLt⟩

theorem lt32 (t : Fin cfg0.N) : t.val < 32 := lt_of_lt_of_eq t.isLt (show cfg0.N = 32 from N_0)

/-- At the first tile of a half the table restarts: the zero block plus this tile's contribution. -/
theorem accD_first (c : Dev nD) (t : Fin cfg0.N) (h0 : t.val % 16 = 0) :
    accD m c t = k0_pay6 (iblk m c 1 t) (iblk m c 0 t) (iblk m c 2 t) k0_pay1 := by
  have h1 : ¬t.val % 16 = 15 := by omega
  rw [accD_def m c t]
  rw [outsAt0_A m c t h0 h1]
  dsimp only
  exact soutA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- At any other tile the table is the previous tile's plus this tile's contribution. -/
theorem accD_next (c : Dev nD) (t : Fin cfg0.N) (h0 : ¬t.val % 16 = 0) :
    accD m c t = k0_pay6 (iblk m c 1 t) (iblk m c 0 t) (iblk m c 2 t) (accD m c (prev t)) := by
  rw [accD_def m c t, accD_def m c (prev t)]
  by_cases h1 : t.val % 16 = 15
  · rw [outsAt0_C m c t h0 h1]
    dsimp only
    exact soutC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)
  · rw [outsAt0_B m c t h0 h1]
    dsimp only
    exact soutB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)

/-- At the first tile of a half the counts restart: the zero row plus this tile's column sums. -/
theorem accN_first (c : Dev nD) (t : Fin cfg0.N) (h0 : t.val % 16 = 0) :
    accN m c t = k0_pay7 (iblk m c 1 t) k0_pay2 := by
  have h1 : ¬t.val % 16 = 15 := by omega
  rw [accN_def m c t]
  rw [outsAt0_A m c t h0 h1]
  dsimp only
  exact soutA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- At any other tile the counts are the previous tile's plus this tile's column sums. -/
theorem accN_next (c : Dev nD) (t : Fin cfg0.N) (h0 : ¬t.val % 16 = 0) :
    accN m c t = k0_pay7 (iblk m c 1 t) (accN m c (prev t)) := by
  rw [accN_def m c t, accN_def m c (prev t)]
  by_cases h1 : t.val % 16 = 15
  · rw [outsAt0_C m c t h0 h1]
    dsimp only
    exact soutC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)
  · rw [outsAt0_B m c t h0 h1]
    dsimp only
    exact soutB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)

/-- Every tile leaves its row sums of squares in the row-result block. -/
theorem out3_eq (c : Dev nD) (t : Fin cfg0.N) :
    (outsAt0 m c t.val t.isLt).1 = k0_pay5 (iblk m c 1 t) (iblk m c 0 t) (iblk m c 2 t) := by
  by_cases h0 : t.val % 16 = 0
  · have h1 : ¬t.val % 16 = 15 := by omega
    rw [outsAt0_A m c t h0 h1]
    dsimp only
    exact outA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)
  · by_cases h1 : t.val % 16 = 15
    · rw [outsAt0_C m c t h0 h1]
      dsimp only
      exact outC3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)
    · rw [outsAt0_B m c t h0 h1]
      dsimp only
      exact outB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)

/-- The last tile of a half leaves, in the partial-table block, the table it has just completed. -/
theorem out4_eq (c : Dev nD) (t : Fin cfg0.N) (h1 : t.val % 16 = 15) :
    (outsAt0 m c t.val t.isLt).2.1 = k0_pay8 (accD m c t) := by
  have h0 : ¬t.val % 16 = 0 := by omega
  rw [accD_def m c t]
  rw [outsAt0_C m c t h0 h1]
  dsimp only
  exact (outC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)).trans
    (congrArg k0_pay8 (soutC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)).symm)

/-- The last tile of a half leaves, in the partial-count block, the counts it has just completed. -/
theorem out5_eq (c : Dev nD) (t : Fin cfg0.N) (h1 : t.val % 16 = 15) :
    (outsAt0 m c t.val t.isLt).2.2.1 = k0_pay9 (accN m c t) := by
  have h0 : ¬t.val % 16 = 0 := by omega
  rw [accN_def m c t]
  rw [outsAt0_C m c t h0 h1]
  dsimp only
  exact (outC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)).trans
    (congrArg k0_pay9 (soutC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2)).symm)

end Cert.KernelIdeal.Accum

end
-- ==== Proof.BlockRead.lean ====
/-
  Where the tile at position t reads and writes. Decided once over the 32 grid points: the feature and one-hot
  blocks of tile t are rows t·2048 … t·2048 + 2047 of their arrays; the centres' block is the whole array; the
  row-result block is entries t·2048 … of the [65536] array; the two partial tables' blocks are half t / 16.
  So an entry (r, ·) of an input block is the array's entry (t·2048 + r, ·).
-/
import proofs.«102487_j2654289789633_2_alg».proof.Proof.Gen.KernelIdeal.Frame
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.BlockRead

open Cert.KernelIdeal Cert.KernelIdeal.Gen

variable {F : FTy → Type} [FloatOps F]
variable (m : (ℓ : Loc nD τ sig) → Buf (Elt F) ℓ)

theorem lt32 (t : Fin cfg0.N) : t.val < 32 := lt_of_lt_of_eq t.isLt (show cfg0.N = 32 from N_0)

/-- The printed index maps at every grid point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-- Row `r` of tile `t` is row `t·2048 + r` of the arrays. -/
theorem row_lt (t : Fin cfg0.N) (r : Fin 2048) : t.val * 2048 + r.val < 65536 := by
  have := lt32 t; have := r.isLt; omega

/-- The feature block of tile `t` at `(r, d)` is the feature array at `(t·2048 + r, d)`. -/
theorem iblk0_at (c : Dev nD) (t : Fin cfg0.N) (r : Fin 2048) (d : Fin 512) :
    iblk m c 0 t (ix2 r d) = V m c main_arg0 (ix2 ⟨t.val * 2048 + r.val, row_lt t r⟩ d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 512 + 1 * d.val = d.val; rw [e1]; omega

/-- The one-hot block of tile `t` at `(r, k)` is the one-hot array at `(t·2048 + r, k)`. -/
theorem iblk1_at (c : Dev nD) (t : Fin cfg0.N) (r : Fin 2048) (k : Fin 100) :
    iblk m c 1 t (ix2 r k) = V m c main_arg1 (ix2 ⟨t.val * 2048 + r.val, row_lt t r⟩ k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 2048 + 1 * r.val = t.val * 2048 + r.val; rw [e0]; omega
  | ⟨1, _⟩ => show win0_1.index t (1 : Fin 2) * 100 + 1 * k.val = k.val; rw [e1]; omega

/-- The centres' block at every tile is the whole centres array. -/
theorem iblk2_at (c : Dev nD) (t : Fin cfg0.N) (k : Fin 100) (d : Fin 512) :
    iblk m c 2 t (ix2 k d) = V m c main_arg2 (ix2 k d) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 100 + 1 * k.val = k.val; rw [e0]; omega
  | ⟨1, _⟩ => show win0_2.index t (1 : Fin 2) * 512 + 1 * d.val = d.val; rw [e1]; omega

end Cert.KernelIdeal.BlockRead

end
-- ==== Proof.PayloadAt.lean ====
/-
  The arithmetic of one tile of 2048 rows, read entry by entry at the ideal values (a float is an extended real, a
  change of float format is the identity, and the float product, sum and difference are the extended reals').

  Written x1 = the tile's rows of the one-hot array [2048, 100], x0 = its rows of the features [2048, 512] and
  x2 = the centres [100, 512]:

  * the difference block is, at (r, d), the selected centre  ∑_c x1[r,c] · x2[c,d]  minus the feature x0[r,d];
  * the tile's row results are, at r, the sum over the lanes d of the squared difference;
  * the running class sums gain, at (c, d), the sum over the tile's rows r of  x1[r,c] · (difference at (r, d));
  * the running class counts gain, at c, the sum over the tile's rows r of  x1[r,c];
  * the two running blocks start from zero, and are handed over unchanged under one more leading unit axis.

  Each of the two products contracts one axis of each operand; its entry is re-indexed from the contraction's own
  one-axis index to the contracted coordinate, and the operands' indices are identified coordinate by coordinate.
-/
import proofs.«102487_j2654289789633_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
noncomputable section
open Idealize.ShloMosaic Idealize.ShloMosaic.ValueIdx
namespace Cert.KernelIdeal.PayloadAt
open Cert.KernelIdeal Cert.KernelIdeal.Gen

/-! ## The first product: a row of the one-hot block against a column of the centres

The product contracts the one-hot block's class axis with the centres' class axis, so at output (r, d) and
class c it reads the one-hot block at (r, c) and the centres at (c, d). -/

theorem sel_lhs_row (i : S2048x512.Idx) (q : dot_S2048x100_S100x512_S2048x512_1_0_0_1_n_n.contr.Idx) :
    (dot_S2048x100_S100x512_S2048x512_1_0_0_1_n_n.lhsIdx i q 0).val = (i 0).val := by
  unfold DotDims.lhsIdx
  rw [dif_neg (show ¬(0 : Fin S2048x100.rank) ∈ dot_S2048x100_S100x512_S2048x512_1_0_0_1_n_n.lhsBatch by decide), dif_pos (show (0 : Fin S2048x100.rank) ∈ dot_S2048x100_S100x512_S2048x512_1_0_0_1_n_n.lhsNonContracting by decide)]
  rfl
theorem sel_lhs_class (i : S2048x512.Idx) (q : dot_S2048x100_S100x512_S2048x512_1_0_0_1_n_n.contr.Idx) :
    (dot_S2048x100_S100x512_S2048x512_1_0_0_1_n_n.lhsIdx i q 1).val = (q ⟨0, by decide⟩).val :=
  dot_S2048x100_S100x512_S2048x512_1_0_0_1_n_n.lhsIdx_val_of_single rfl i q
theorem sel_rhs_class (i : S2048x512.Idx) (q : dot_S2048x100_S100x512_S2048x512_1_0_0_1_n_n.contr.Idx) :
    (dot_S2048x100_S100x512_S2048x512_1_0_0_1_n_n.rhsIdx i q 0).val = (q ⟨0, by decide⟩).val :=
  dot_S2048x100_S100x512_S2048x512_1_0_0_1_n_n.rhsIdx_val_of_single rfl i q
theorem sel_rhs_lane (i : S2048x512.Idx) (q : dot_S2048x100_S100x512_S2048x512_1_0_0_1_n_n.contr.Idx) :
    (dot_S2048x100_S100x512_S2048x512_1_0_0_1_n_n.rhsIdx i q 1).val = (i 1).val := by
  unfold DotDims.rhsIdx
  rw [dif_neg (show ¬(1 : Fin S100x512.rank) ∈ dot_S2048x100_S100x512_S2048x512_1_0_0_1_n_n.rhsBatch by decide), dif_pos (show (1 : Fin S100x512.rank) ∈ dot_S2048x100_S100x512_S2048x512_1_0_0_1_n_n.rhsNonContracting by decide)]
  rfl

/-- The first product into the zero accumulator, at (r, d): the sum over the classes. -/
theorem sel_at (a : FVec Ideal S2048x100 .bf16) (b : FVec Ideal S100x512 .bf16) (r : Fin 2048) (d : Fin 512) :
    matmul dot_S2048x100_S100x512_S2048x512_1_0_0_1_n_n none a b (constant (F := Ideal) S2048x512 .f32 0x00000000#32) (ix2 r d)
      = ∑ c : Fin 100, a (ix2 r c) * b (ix2 c d) := by
  simp only [matmul]
  rw [Ideal.matmul_constant_zero_apply, ← Equiv.sum_comp (contrEquiv1 dot_S2048x100_S100x512_S2048x512_1_0_0_1_n_n 100 rfl rfl).symm]
  refine Finset.sum_congr rfl fun k _ => ?_
  have hk := contrEquiv1_symm_val dot_S2048x100_S100x512_S2048x512_1_0_0_1_n_n 100 rfl rfl k
  have el : dot_S2048x100_S100x512_S2048x512_1_0_0_1_n_n.lhsIdx (ix2 r d) ((contrEquiv1 dot_S2048x100_S100x512_S2048x512_1_0_0_1_n_n 100 rfl rfl).symm k) = ix2 r k := funext fun x => Fin.ext (by
    match x with
    | ⟨0, _⟩ => exact sel_lhs_row _ _
    | ⟨1, _⟩ => exact (sel_lhs_class _ _).trans hk)
  have er : dot_S2048x100_S100x512_S2048x512_1_0_0_1_n_n.rhsIdx (ix2 r d) ((contrEquiv1 dot_S2048x100_S100x512_S2048x512_1_0_0_1_n_n 100 rfl rfl).symm k) = ix2 k d := funext fun x => Fin.ext (by
    match x with
    | ⟨0, _⟩ => exact (sel_rhs_class _ _).trans hk
    | ⟨1, _⟩ => exact sel_rhs_lane _ _)
  rw [el, er]

theorem pay4_at (x1 : Vec Ideal S2048x100 .f32) (x0 : Vec Ideal S2048x512 .f32) (x2 : Vec Ideal S100x512 .f32) (r : Fin 2048) (d : Fin 512) :
    k0_pay4 (F := Ideal) x1 x0 x2 (ix2 r d) = (∑ c : Fin 100, x1 (ix2 r c) * x2 (ix2 c d)) - x0 (ix2 r d) := by
  unfold k0_pay4 k0_pay3
  refine (subf_apply _ _ _).trans ?_
  refine congrArg (· - x0 (ix2 r d)) ?_
  exact (sel_at _ _ r d).trans (Finset.sum_congr rfl fun c _ => rfl)

/-! ## The lane sum of a row

A sum over the lane axis of a [2048, 512] block, read at row r, is the sum over the lanes d of the block at (r, d). -/

theorem rowSum_at (src : FVec Ideal S2048x512 .f32) (h : S2048x512.Reduces [1] S2048) (hφ : FKind.Formats .f32)
    (hacc : (0x00000000#32 : BitVec 32) = 0x00000000#32) (r : Fin 2048) :
    multiReduction .add [1] S2048 src 0x00000000#32 h hφ hacc (ix1 r) = ∑ d : Fin 512, src (ix2 r d) := by
  refine (Ideal.multiReduction_add_single src 0x00000000#32 h hφ hacc (ix1 r)).trans ?_
  refine Finset.sum_congr rfl fun d _ => congrArg src (funext fun a => Fin.ext ?_)
  match a with
  | ⟨0, _⟩ => rfl
  | ⟨1, _⟩ => rfl

theorem pay5_at (x1 : Vec Ideal S2048x100 .f32) (x0 : Vec Ideal S2048x512 .f32) (x2 : Vec Ideal S100x512 .f32) (r : Fin 2048) :
    k0_pay5 (F := Ideal) x1 x0 x2 (ix1 r) = ∑ d : Fin 512, k0_pay4 (F := Ideal) x1 x0 x2 (ix2 r d) * k0_pay4 (F := Ideal) x1 x0 x2 (ix2 r d) := by
  unfold k0_pay5
  exact (rowSum_at (mulf (k0_pay4 (F := Ideal) x1 x0 x2) (k0_pay4 (F := Ideal) x1 x0 x2)) _ _ _ r).trans
    (Finset.sum_congr rfl fun d _ => mulf_apply _ _ _)

/-! ## The second product: a column of the one-hot block against a column of the differences

The product contracts the ROW axis of both operands, so at output (c, d) and row r it reads the one-hot block at
(r, c) and the differences at (r, d). -/

theorem cls_lhs_row (i : S100x512.Idx) (q : dot_S2048x100_S2048x512_S100x512_0_0_1_1_n_n.contr.Idx) :
    (dot_S2048x100_S2048x512_S100x512_0_0_1_1_n_n.lhsIdx i q 0).val = (q ⟨0, by decide⟩).val :=
  dot_S2048x100_S2048x512_S100x512_0_0_1_1_n_n.lhsIdx_val_of_single rfl i q
theorem cls_lhs_class (i : S100x512.Idx) (q : dot_S2048x100_S2048x512_S100x512_0_0_1_1_n_n.contr.Idx) :
    (dot_S2048x100_S2048x512_S100x512_0_0_1_1_n_n.lhsIdx i q 1).val = (i 0).val := by
  unfold DotDims.lhsIdx
  rw [dif_neg (show ¬(1 : Fin S2048x100.rank) ∈ dot_S2048x100_S2048x512_S100x512_0_0_1_1_n_n.lhsBatch by decide), dif_pos (show (1 : Fin S2048x100.rank) ∈ dot_S2048x100_S2048x512_S100x512_0_0_1_1_n_n.lhsNonContracting by decide)]
  rfl
theorem cls_rhs_row (i : S100x512.Idx) (q : dot_S2048x100_S2048x512_S100x512_0_0_1_1_n_n.contr.Idx) :
    (dot_S2048x100_S2048x512_S100x512_0_0_1_1_n_n.rhsIdx i q 0).val = (q ⟨0, by decide⟩).val :=
  dot_S2048x100_S2048x512_S100x512_0_0_1_1_n_n.rhsIdx_val_of_single rfl i q
theorem cls_rhs_lane (i : S100x512.Idx) (q : dot_S2048x100_S2048x512_S100x512_0_0_1_1_n_n.contr.Idx) :
    (dot_S2048x100_S2048x512_S100x512_0_0_1_1_n_n.rhsIdx i q 1).val = (i 1).val := by
  unfold DotDims.rhsIdx
  rw [dif_neg (show ¬(1 : Fin S2048x512.rank) ∈ dot_S2048x100_S2048x512_S100x512_0_0_1_1_n_n.rhsBatch by decide), dif_pos (show (1 : Fin S2048x512.rank) ∈ dot_S2048x100_S2048x512_S100x512_0_0_1_1_n_n.rhsNonContracting by decide)]
  rfl

/-- The second product into the zero accumulator, at (c, d): the sum over the rows. -/
theorem cls_at (a : FVec Ideal S2048x100 .bf16) (b : FVec Ideal S2048x512 .bf16) (c : Fin 100) (d : Fin 512) :
    matmul dot_S2048x100_S2048x512_S100x512_0_0_1_1_n_n none a b (constant (F := Ideal) S100x512 .f32 0x00000000#32) (ix2 c d)
      = ∑ r : Fin 2048, a (ix2 r c) * b (ix2 r d) := by
  simp only [matmul]
  rw [Ideal.matmul_constant_zero_apply, ← Equiv.sum_comp (contrEquiv1 dot_S2048x100_S2048x512_S100x512_0_0_1_1_n_n 2048 rfl rfl).symm]
  refine Finset.sum_congr rfl fun k _ => ?_
  have hk := contrEquiv1_symm_val dot_S2048x100_S2048x512_S100x512_0_0_1_1_n_n 2048 rfl rfl k
  have el : dot_S2048x100_S2048x512_S100x512_0_0_1_1_n_n.lhsIdx (ix2 c d) ((contrEquiv1 dot_S2048x100_S2048x512_S100x512_0_0_1_1_n_n 2048 rfl rfl).symm k) = ix2 k c := funext fun x => Fin.ext (by
    match x with
    | ⟨0, _⟩ => exact (cls_lhs_row _ _).trans hk
    | ⟨1, _⟩ => exact cls_lhs_class _ _)
  have er : dot_S2048x100_S2048x512_S100x512_0_0_1_1_n_n.rhsIdx (ix2 c d) ((contrEquiv1 dot_S2048x100_S2048x512_S100x512_0_0_1_1_n_n 2048 rfl rfl).symm k) = ix2 k d := funext fun x => Fin.ext (by
    match x with
    | ⟨0, _⟩ => exact (cls_rhs_row _ _).trans hk
    | ⟨1, _⟩ => exact cls_rhs_lane _ _)
  rw [el, er]

theorem pay6_at (x1 : Vec Ideal S2048x100 .f32) (x0 : Vec Ideal S2048x512 .f32) (x2 : Vec Ideal S100x512 .f32) (acc : Vec Ideal S100x512 .f32) (c : Fin 100) (d : Fin 512) :
    k0_pay6 (F := Ideal) x1 x0 x2 acc (ix2 c d) = acc (ix2 c d) + ∑ r : Fin 2048, x1 (ix2 r c) * k0_pay4 (F := Ideal) x1 x0 x2 (ix2 r d) := by
  unfold k0_pay6 k0_pay3
  refine (congrFun (shapeCast_self _ _) (ix2 c d)).trans ?_
  refine (addf_apply _ _ _).trans ?_
  refine congrArg (acc (ix2 c d) + ·) ?_
  exact (cls_at _ _ c d).trans (Finset.sum_congr rfl fun r _ =>
    congrArg₂ (· * ·) (truncf_apply (φ := .f32) (ψ := .bf16) x1 _ _) (truncf_apply (φ := .f32) (ψ := .bf16) (k0_pay4 (F := Ideal) x1 x0 x2) _ _))

/-! ## The row sum of a class column, kept as a one-row block -/

theorem colSum_at (src : FVec Ideal S2048x100 .f32) (h : S2048x100.Reduces [0] S100) (hφ : FKind.Formats .f32)
    (hacc : (0x00000000#32 : BitVec 32) = 0x00000000#32) (c : Fin 100) :
    multiReduction .add [0] S100 src 0x00000000#32 h hφ hacc (ix1 c) = ∑ r : Fin 2048, src (ix2 r c) := by
  refine (Ideal.multiReduction_add_single src 0x00000000#32 h hφ hacc (ix1 c)).trans ?_
  refine Finset.sum_congr rfl fun r _ => congrArg src (funext fun a => Fin.ext ?_)
  match a with
  | ⟨0, _⟩ => rfl
  | ⟨1, _⟩ => rfl

theorem pay7_at (x1 : Vec Ideal S2048x100 .f32) (acc : Vec Ideal S1x100 .f32) (c : Fin 100) :
    k0_pay7 (F := Ideal) x1 acc (ix2 (0 : Fin 1) c) = acc (ix2 (0 : Fin 1) c) + ∑ r : Fin 2048, x1 (ix2 r c) := by
  unfold k0_pay7
  refine (congrFun (shapeCast_self _ _) (ix2 (0 : Fin 1) c)).trans ?_
  refine (addf_apply _ _ _).trans ?_
  refine congrArg (acc (ix2 (0 : Fin 1) c) + ·) ?_
  refine (shapeCast_a_1a_apply _ _ (0 : Fin 1) c).trans ?_
  exact colSum_at x1 _ _ _ c

/-! ## The two stores that add a leading unit axis, and the two zero fills -/

theorem pay8_at (v : Vec Ideal S100x512 .f32) (c : Fin 100) (d : Fin 512) : k0_pay8 (F := Ideal) v (ix3 (0 : Fin 1) c d) = v (ix2 c d) := by
  unfold k0_pay8
  exact shapeCast_ab_1ab_apply v _ (0 : Fin 1) c d

theorem pay9_at (v : Vec Ideal S1x100 .f32) (c : Fin 100) : k0_pay9 (F := Ideal) v (ix3 (0 : Fin 1) (0 : Fin 1) c) = v (ix2 (0 : Fin 1) c) := by
  unfold k0_pay9
  exact shapeCast_ab_1ab_apply v _ (0 : Fin 1) (0 : Fin 1) c

theorem pay1_at (c : Fin 100) (d : Fin 512) : k0_pay1 (F := Ideal) (ix2 c d) = 0 := by
  unfold k0_pay1
  refine (congrFun (shapeCast_self _ _) (ix2 c d)).trans ?_
  exact Ideal.ofBits_zero_f32

theorem pay2_at (c : Fin 100) : k0_pay2 (F := Ideal) (ix2 (0 : Fin 1) c) = 0 := by
  unfold k0_pay2
  refine (congrFun (shapeCast_self _ _) (ix2 (0 : Fin 1) c)).trans ?_
  exact Ideal.ofBits_zero_f32

end Cert.KernelIdeal.PayloadAt
end
-- ==== Proof.Tiles.lean ====
/-
  The kernel's blocks at the ideal values, as the specification's tile-by-tile quantities.

  Write X, H, Ce for the three argument arrays as the region finds them. For the tile at position t:
    an entry (r, k) of its one-hot block is H at row t·2048 + r;
    an entry (r, d) of its difference block (selected centre minus feature) is the difference at row t·2048 + r;
    its row results are the rows' sums of squared differences;
    its contribution to the running table at (k, d) is the tile's  ∑_r H[row, k] · dif[row, d],  and to the running
    counts at k the tile's  ∑_r H[row, k].
  So after tile n the running sums are the sums of those contributions over the tiles 16·(n/16) … n of n's half, by
  induction along the half: the first tile starts from zero, each later tile adds to the tile before.
-/
import proofs.«102487_j2654289789633_2_alg».proof.Proof.Spec
import proofs.«102487_j2654289789633_2_alg».proof.Proof.Accum
import proofs.«102487_j2654289789633_2_alg».proof.Proof.BlockRead
import proofs.«102487_j2654289789633_2_alg».proof.Proof.PayloadAt

set_option maxRecDepth 16384

noncomputable section

open Idealize.ShloMosaic Idealize.ShloMosaic.TcCoe Idealize.SL.Sem Idealize.ShloMosaic.ValueIdx

namespace Cert.KernelIdeal.Tiles

open Cert.KernelIdeal Cert.KernelIdeal.Gen Cert.KernelIdeal.Accum Cert.KernelIdeal.BlockRead
  Cert.KernelIdeal.PayloadAt Cert.CenterLoss

variable (m : (ℓ : Loc nD τ sig) → Buf (Elt Ideal) ℓ)

/-- The three argument arrays as the region finds them. -/
abbrev aX (c : Dev nD) : ArrX := V m c main_arg0
abbrev aH (c : Dev nD) : ArrH := V m c main_arg1
abbrev aC (c : Dev nD) : ArrC := V m c main_arg2

/-- Tile `t`'s three input blocks, at their literal shapes: features [2048, 512], one-hot [2048, 100], centres [100, 512]. -/
abbrev bX (c : Dev nD) (t : Fin cfg0.N) : Vec Ideal S2048x512 .f32 := iblk m c 0 t
abbrev bH (c : Dev nD) (t : Fin cfg0.N) : Vec Ideal S2048x100 .f32 := iblk m c 1 t
abbrev bC (c : Dev nD) (t : Fin cfg0.N) : Vec Ideal S100x512 .f32 := iblk m c 2 t

/-- An entry of tile `t`'s one-hot block is `H` at the tile's row. -/
theorem blkH (c : Dev nD) (t : Fin cfg0.N) (r : Fin 2048) (k : Fin 100) :
    bH m c t (ix2 r k) = Hn (aH m c) (t.val * 2048 + r.val) k := by
  show iblk m c 1 t (ix2 r k) = _
  rw [iblk1_at m c t r k]
  unfold Hn
  rw [dif_pos (row_lt t r)]

/-- An entry of tile `t`'s difference block is the difference at the tile's row. -/
theorem blkDif (c : Dev nD) (t : Fin cfg0.N) (r : Fin 2048) (d : Fin 512) :
    k0_pay4 (F := Ideal) (bH m c t) (bX m c t) (bC m c t) (ix2 r d)
      = difn (aX m c) (aH m c) (aC m c) (t.val * 2048 + r.val) d := by
  refine (pay4_at (bH m c t) (bX m c t) (bC m c t) r d).trans ?_
  unfold difn
  rw [dif_pos (row_lt t r)]
  unfold dif sel
  refine congrArg₂ (· - ·) (Finset.sum_congr rfl fun k _ => ?_) (iblk0_at m c t r d)
  exact congrArg₂ (· * ·) (iblk1_at m c t r k) (iblk2_at m c t k d)

/-- Tile `t`'s row results are its rows' sums of squared differences. -/
theorem blkRowSq (c : Dev nD) (t : Fin cfg0.N) (r : Fin 2048) :
    k0_pay5 (F := Ideal) (bH m c t) (bX m c t) (bC m c t) (ix1 r)
      = rowSq (aX m c) (aH m c) (aC m c) (ix1 ⟨t.val * 2048 + r.val, row_lt t r⟩) := by
  refine (pay5_at (bH m c t) (bX m c t) (bC m c t) r).trans ?_
  unfold rowSq
  refine Finset.sum_congr rfl fun d _ => ?_
  rw [blkDif m c t r d]
  unfold difn
  rw [dif_pos (row_lt t r)]

/-- Tile `t`'s contribution to the running table. -/
theorem blkDelta (c : Dev nD) (t : Fin cfg0.N) (k : Fin 100) (d : Fin 512) :
    ∑ r : Fin 2048, bH m c t (ix2 r k) * k0_pay4 (F := Ideal) (bH m c t) (bX m c t) (bC m c t) (ix2 r d)
      = tileDelta (aX m c) (aH m c) (aC m c) t.val k d := by
  unfold tileDelta
  exact Finset.sum_congr rfl fun r _ => by rw [blkH m c t r k, blkDif m c t r d]

/-- Tile `t`'s contribution to the running counts. -/
theorem blkCount (c : Dev nD) (t : Fin cfg0.N) (k : Fin 100) :
    ∑ r : Fin 2048, bH m c t (ix2 r k) = tileCount (aH m c) t.val k := by
  unfold tileCount
  exact Finset.sum_congr rfl fun r _ => blkH m c t r k

theorem prev_succ (n : ℕ) (h : n + 1 < cfg0.N) :
    prev (⟨n + 1, h⟩ : Fin cfg0.N) = ⟨n, Nat.lt_of_succ_lt h⟩ := Fin.ext (Nat.add_sub_cancel n 1)

/-- After tile `n` the running table is the sum of the contributions of the tiles of `n`'s half up to `n`. -/
theorem accD_closed (c : Dev nD) (k : Fin 100) (d : Fin 512) : ∀ (n : ℕ) (h : n < cfg0.N),
    accD m c ⟨n, h⟩ (ix2 k d)
      = ∑ j ∈ Finset.range (n % 16 + 1), tileDelta (aX m c) (aH m c) (aC m c) (16 * (n / 16) + j) k d
  | 0, h => by
    rw [accD_first m c ⟨0, h⟩ rfl]
    refine (pay6_at (bH m c ⟨0, h⟩) (bX m c ⟨0, h⟩) (bC m c ⟨0, h⟩) (k0_pay1 (F := Ideal)) k d).trans ?_
    rw [pay1_at, zero_add, blkDelta m c ⟨0, h⟩ k d]
    simp
  | n + 1, h => by
    by_cases h0 : (n + 1) % 16 = 0
    · rw [accD_first m c ⟨n + 1, h⟩ h0]
      refine (pay6_at (bH m c ⟨n + 1, h⟩) (bX m c ⟨n + 1, h⟩) (bC m c ⟨n + 1, h⟩) (k0_pay1 (F := Ideal)) k d).trans ?_
      rw [pay1_at, zero_add, blkDelta m c ⟨n + 1, h⟩ k d, h0]
      have e : 16 * ((n + 1) / 16) + 0 = n + 1 := by omega
      simp [e]
    · rw [accD_next m c ⟨n + 1, h⟩ h0, prev_succ n h]
      refine (pay6_at (bH m c ⟨n + 1, h⟩) (bX m c ⟨n + 1, h⟩) (bC m c ⟨n + 1, h⟩)
        (accD m c ⟨n, Nat.lt_of_succ_lt h⟩) k d).trans ?_
      rw [accD_closed c k d n (Nat.lt_of_succ_lt h), blkDelta m c ⟨n + 1, h⟩ k d]
      have e1 : (n + 1) / 16 = n / 16 := by omega
      have e2 : (n + 1) % 16 = n % 16 + 1 := by omega
      have e3 : 16 * (n / 16) + (n % 16 + 1) = n + 1 := by omega
      rw [e1, e2, Finset.sum_range_succ _ (n % 16 + 1), e3]

/-- After tile `n` the running counts are the sum of the counts of the tiles of `n`'s half up to `n`. -/
theorem accN_closed (c : Dev nD) (k : Fin 100) : ∀ (n : ℕ) (h : n < cfg0.N),
    accN m c ⟨n, h⟩ (ix2 (0 : Fin 1) k)
      = ∑ j ∈ Finset.range (n % 16 + 1), tileCount (aH m c) (16 * (n / 16) + j) k
  | 0, h => by
    rw [accN_first m c ⟨0, h⟩ rfl]
    refine (pay7_at (bH m c ⟨0, h⟩) (k0_pay2 (F := Ideal)) k).trans ?_
    rw [pay2_at, zero_add, blkCount m c ⟨0, h⟩ k]
    simp
  | n + 1, h => by
    by_cases h0 : (n + 1) % 16 = 0
    · rw [accN_first m c ⟨n + 1, h⟩ h0]
      refine (pay7_at (bH m c ⟨n + 1, h⟩) (k0_pay2 (F := Ideal)) k).trans ?_
      rw [pay2_at, zero_add, blkCount m c ⟨n + 1, h⟩ k, h0]
      have e : 16 * ((n + 1) / 16) + 0 = n + 1 := by omega
      simp [e]
    · rw [accN_next m c ⟨n + 1, h⟩ h0, prev_succ n h]
      refine (pay7_at (bH m c ⟨n + 1, h⟩) (accN m c ⟨n, Nat.lt_of_succ_lt h⟩) k).trans ?_
      rw [accN_closed c k n (Nat.lt_of_succ_lt h), blkCount m c ⟨n + 1, h⟩ k]
      have e1 : (n + 1) / 16 = n / 16 := by omega
      have e2 : (n + 1) % 16 = n % 16 + 1 := by omega
      have e3 : 16 * (n / 16) + (n % 16 + 1) = n + 1 := by omega
      rw [e1, e2, Finset.sum_range_succ _ (n % 16 + 1), e3]

/-- At the last tile of a half the running table is the half's partial summed differences. -/
theorem accD_last (c : Dev nD) (t : Fin cfg0.N) (h1 : t.val % 16 = 15) (k : Fin 100) (d : Fin 512) :
    accD m c t (ix2 k d) = halfDelta (aX m c) (aH m c) (aC m c) (t.val / 16) k d := by
  rw [show t = ⟨t.val, t.isLt⟩ from rfl, accD_closed m c k d t.val t.isLt, h1]
  rfl

/-- At the last tile of a half the running counts are the half's partial counts. -/
theorem accN_last (c : Dev nD) (t : Fin cfg0.N) (h1 : t.val % 16 = 15) (k : Fin 100) :
    accN m c t (ix2 (0 : Fin 1) k) = halfCount (aH m c) (t.val / 16) k := by
  rw [show t = ⟨t.val, t.isLt⟩ from rfl, accN_closed m c k t.val t.isLt, h1]
  rfl

end Cert.KernelIdeal.Tiles

end
-- ==== Proof.Arrays.lean ====
/-
  From blocks to arrays: what the region's three output arrays hold when it ends.

  * The row results [65536]: every tile t writes back its block, entries t·2048 … t·2048 + 2047, and those are the
    rows' sums of squared differences; entry b lies in tile b / 2048's block. So the array is the whole array of
    row sums.
  * The partial tables [2, 100, 512] and [2, 1, 100]: only the last tile of a half (t ≡ 15 mod 16) writes its block
    back, block t / 16, and what it writes is the running sum it has just completed, which is the half's partial
    sum; half q's block is written by tile 16q + 15. So the arrays are the two halves' partial sums.
-/
import proofs.«102487_j2654289789633_2_alg».proof.Proof.Tiles

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Accum Cert.KernelIdeal.BlockRead
  Cert.KernelIdeal.PayloadAt Cert.KernelIdeal.Tiles Cert.CenterLoss

variable (m : (ℓ : Loc nD τ sig) → Buf (Elt Ideal) ℓ)

theorem hN : cfg0.N = 32 := N_0

/-! ## The row results -/

/-- What tile `t` writes back to the row results is block `t` of the array of row sums of squares. -/
theorem flushed3_eq (c : Dev nD) (t : Fin cfg0.N) (hf : (cfg0.win 3).flush t = true) :
    (dats m 0 c).flushed 3 t = ((cfg0.win 3).blk t).view.read (Elt Ideal) (rowSq (aX m c) (aH m c) (aC m c)) := by
  obtain ⟨-, -, -, -, -, -, e3, -⟩ := idx_facts t
  show (cfg0.win 3).cut (grid0.coords t) ((dats m 0 c).after 3 t) = _
  rw [after0_3, out3_eq m c t]
  funext y
  obtain ⟨r, rfl⟩ : ∃ r : Fin 2048, y = ix1 r := ⟨y 0, eq_ix1 y⟩
  rw [View.read_apply]
  refine (blkRowSq m c t r).trans (congrArg (rowSq (aX m c) (aH m c) (aC m c)) ?_)
  funext a
  apply Fin.ext
  match a with
  | ⟨0, _⟩ => show t.val * 2048 + r.val = win0_3.index t (0 : Fin 1) * 2048 + 1 * r.val; rw [e3]; omega

/-- An entry of the row results is in tile `t`'s block iff it lies in the block's range. -/
theorem mem_blk3 (t : Fin cfg0.N) (i : S65536.Idx) :
    i ∈ ((cfg0.win 3).blk t).view.set ↔ ∀ a : Fin 1, win0_3.index t a * S2048.size a ≤ (i a).val ∧ (i a).val < win0_3.index t a * S2048.size a + S2048.size a := by
  show i ∈ ((View.whole main_v0_0).slice (win0_3.rect t)).set ↔ _
  rw [View.set_slice_whole, Rect.mem_set_unit]
  exact Iff.rfl

/-- Entry `b` of the row results is in the block of tile `b / 2048`, which is written back. -/
theorem cover3 (i : S65536.Idx) : ∃ t : Fin cfg0.N, (cfg0.win 3).flush t = true ∧ i ∈ ((cfg0.win 3).blk t).view.set := by
  have hi : (i 0).val < 65536 := (i 0).isLt
  have ht : (i 0).val / 2048 < cfg0.N := by rw [hN]; omega
  refine ⟨⟨(i 0).val / 2048, ht⟩, flush0_3 _, ?_⟩
  obtain ⟨-, -, -, -, -, -, e3, -⟩ := idx_facts (⟨(i 0).val / 2048, ht⟩ : Fin cfg0.N)
  rw [mem_blk3]
  intro a
  match a with
  | ⟨0, _⟩ =>
    show win0_3.index ⟨(i 0).val / 2048, ht⟩ (0 : Fin 1) * 2048 ≤ (i 0).val ∧ (i 0).val < win0_3.index ⟨(i 0).val / 2048, ht⟩ (0 : Fin 1) * 2048 + 2048
    rw [e3]
    show (i 0).val / 2048 * 2048 ≤ (i 0).val ∧ (i 0).val < (i 0).val / 2048 * 2048 + 2048
    omega

/-- The row-result array ends holding every row's sum of squared differences. -/
theorem final3 (c : Dev nD) : (dats m 0 c).arrAt 3 cfg0.N = rowSq (aX m c) (aH m c) (aC m c) :=
  (dats m 0 c).arrAt_eq_of_cover 3 (rowSq (aX m c) (aH m c) (aC m c)) (flushed3_eq m c) cover3

/-! ## The partial table of summed differences -/

theorem half_lt (t : Fin cfg0.N) : t.val / 16 < 2 := by have := BlockRead.lt32 t; omega

/-- What the last tile of a half writes back to the partial table is its block of the two halves' partial sums. -/
theorem flushed4_eq (c : Dev nD) (t : Fin cfg0.N) (hf : (cfg0.win 4).flush t = true) :
    (dats m 0 c).flushed 4 t = ((cfg0.win 4).blk t).view.read (Elt Ideal) (partDelta (aX m c) (aH m c) (aC m c)) := by
  have h1 : t.val % 16 = 15 := (flush0_4 t).mp hf
  obtain ⟨-, -, -, -, -, -, -, e0, e1, e2, -⟩ := idx_facts t
  show (cfg0.win 4).cut (grid0.coords t) ((dats m 0 c).after 4 t) = _
  rw [after0_4, out4_eq m c t h1]
  funext y
  obtain ⟨u, k, d, rfl⟩ : ∃ (u : Fin 1) (k : Fin 100) (d : Fin 512), y = ix3 u k d := ⟨y 0, y 1, y 2, eq_ix3 y⟩
  obtain rfl : u = 0 := Subsingleton.elim _ _
  rw [View.read_apply]
  refine (pay8_at (accD m c t) k d).trans ?_
  rw [accD_last m c t h1 k d]
  refine Eq.trans (rfl : _ = partDelta (aX m c) (aH m c) (aC m c) (ix3 (⟨t.val / 16, half_lt t⟩ : Fin 2) k d))
    (congrArg (partDelta (aX m c) (aH m c) (aC m c)) ?_)
  funext a
  apply Fin.ext
  match a with
  | ⟨0, _⟩ => show t.val / 16 = win0_4.index t (0 : Fin 3) * 1 + 1 * 0; rw [e0]; omega
  | ⟨1, _⟩ => show k.val = win0_4.index t (1 : Fin 3) * 100 + 1 * k.val; rw [e1]; omega
  | ⟨2, _⟩ => show d.val = win0_4.index t (2 : Fin 3) * 512 + 1 * d.val; rw [e2]; omega

theorem mem_blk4 (t : Fin cfg0.N) (i : S2x100x512.Idx) :
    i ∈ ((cfg0.win 4).blk t).view.set ↔ ∀ a : Fin 3, win0_4.index t a * S1x100x512.size a ≤ (i a).val ∧ (i a).val < win0_4.index t a * S1x100x512.size a + S1x100x512.size a := by
  show i ∈ ((View.whole main_v0_1).slice (win0_4.rect t)).set ↔ _
  rw [View.set_slice_whole, Rect.mem_set_unit]
  exact Iff.rfl

/-- Half `q`'s block of the partial table is written back by tile `16q + 15`. -/
theorem cover4 (i : S2x100x512.Idx) : ∃ t : Fin cfg0.N, (cfg0.win 4).flush t = true ∧ i ∈ ((cfg0.win 4).blk t).view.set := by
  have h0 : (i 0).val < 2 := (i 0).isLt
  have h1 : (i 1).val < 100 := (i 1).isLt
  have h2 : (i 2).val < 512 := (i 2).isLt
  have ht : 16 * (i 0).val + 15 < cfg0.N := by rw [hN]; omega
  refine ⟨⟨16 * (i 0).val + 15, ht⟩, (flush0_4 _).mpr (by show (16 * (i 0).val + 15) % 16 = 15; omega), ?_⟩
  obtain ⟨-, -, -, -, -, -, -, e0, e1, e2, -⟩ := idx_facts (⟨16 * (i 0).val + 15, ht⟩ : Fin cfg0.N)
  rw [mem_blk4]
  intro a
  match a with
  | ⟨0, _⟩ =>
    show win0_4.index ⟨16 * (i 0).val + 15, ht⟩ (0 : Fin 3) * 1 ≤ (i 0).val ∧ (i 0).val < win0_4.index ⟨16 * (i 0).val + 15, ht⟩ (0 : Fin 3) * 1 + 1
    rw [e0]
    show (16 * (i 0).val + 15) / 16 * 1 ≤ (i 0).val ∧ (i 0).val < (16 * (i 0).val + 15) / 16 * 1 + 1
    omega
  | ⟨1, _⟩ =>
    show win0_4.index ⟨16 * (i 0).val + 15, ht⟩ (1 : Fin 3) * 100 ≤ (i 1).val ∧ (i 1).val < win0_4.index ⟨16 * (i 0).val + 15, ht⟩ (1 : Fin 3) * 100 + 100
    rw [e1]; omega
  | ⟨2, _⟩ =>
    show win0_4.index ⟨16 * (i 0).val + 15, ht⟩ (2 : Fin 3) * 512 ≤ (i 2).val ∧ (i 2).val < win0_4.index ⟨16 * (i 0).val + 15, ht⟩ (2 : Fin 3) * 512 + 512
    rw [e2]; omega

/-- The partial-table array ends holding the two halves' partial summed differences. -/
theorem final4 (c : Dev nD) : (dats m 0 c).arrAt 4 cfg0.N = partDelta (aX m c) (aH m c) (aC m c) :=
  (dats m 0 c).arrAt_eq_of_cover 4 (partDelta (aX m c) (aH m c) (aC m c)) (flushed4_eq m c) cover4

/-! ## The partial counts -/

/-- What the last tile of a half writes back to the partial counts is its block of the two halves' partial counts. -/
theorem flushed5_eq (c : Dev nD) (t : Fin cfg0.N) (hf : (cfg0.win 5).flush t = true) :
    (dats m 0 c).flushed 5 t = ((cfg0.win 5).blk t).view.read (Elt Ideal) (partCount (aH m c)) := by
  have h1 : t.val % 16 = 15 := (flush0_5 t).mp hf
  obtain ⟨-, -, -, -, -, -, -, -, -, -, e0, e1, e2⟩ := idx_facts t
  show (cfg0.win 5).cut (grid0.coords t) ((dats m 0 c).after 5 t) = _
  rw [after0_5, out5_eq m c t h1]
  funext y
  obtain ⟨u, v, k, rfl⟩ : ∃ (u : Fin 1) (v : Fin 1) (k : Fin 100), y = ix3 u v k := ⟨y 0, y 1, y 2, eq_ix3 y⟩
  obtain rfl : u = 0 := Subsingleton.elim _ _
  obtain rfl : v = 0 := Subsingleton.elim _ _
  rw [View.read_apply]
  refine (pay9_at (accN m c t) k).trans ?_
  rw [accN_last m c t h1 k]
  refine Eq.trans (rfl : _ = partCount (aH m c) (ix3 (⟨t.val / 16, half_lt t⟩ : Fin 2) (0 : Fin 1) k))
    (congrArg (partCount (aH m c)) ?_)
  funext a
  apply Fin.ext
  match a with
  | ⟨0, _⟩ => show t.val / 16 = win0_5.index t (0 : Fin 3) * 1 + 1 * 0; rw [e0]; omega
  | ⟨1, _⟩ => show 0 = win0_5.index t (1 : Fin 3) * 1 + 1 * 0; rw [e1]
  | ⟨2, _⟩ => show k.val = win0_5.index t (2 : Fin 3) * 100 + 1 * k.val; rw [e2]; omega

theorem mem_blk5 (t : Fin cfg0.N) (i : S2x1x100.Idx) :
    i ∈ ((cfg0.win 5).blk t).view.set ↔ ∀ a : Fin 3, win0_5.index t a * S1x1x100.size a ≤ (i a).val ∧ (i a).val < win0_5.index t a * S1x1x100.size a + S1x1x100.size a := by
  show i ∈ ((View.whole main_v0_2).slice (win0_5.rect t)).set ↔ _
  rw [View.set_slice_whole, Rect.mem_set_unit]
  exact Iff.rfl

/-- Half `q`'s block of the partial counts is written back by tile `16q + 15`. -/
theorem cover5 (i : S2x1x100.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 100 := (i 2).isLt
  have ht : 16 * (i 0).val + 15 < cfg0.N := by rw [hN]; omega
  refine ⟨⟨16 * (i 0).val + 15, ht⟩, (flush0_5 _).mpr (by show (16 * (i 0).val + 15) % 16 = 15; omega), ?_⟩
  obtain ⟨-, -, -, -, -, -, -, -, -, -, e0, e1, e2⟩ := idx_facts (⟨16 * (i 0).val + 15, ht⟩ : Fin cfg0.N)
  rw [mem_blk5]
  intro a
  match a with
  | ⟨0, _⟩ =>
    show win0_5.index ⟨16 * (i 0).val + 15, ht⟩ (0 : Fin 3) * 1 ≤ (i 0).val ∧ (i 0).val < win0_5.index ⟨16 * (i 0).val + 15, ht⟩ (0 : Fin 3) * 1 + 1
    rw [e0]
    show (16 * (i 0).val + 15) / 16 * 1 ≤ (i 0).val ∧ (i 0).val < (16 * (i 0).val + 15) / 16 * 1 + 1
    omega
  | ⟨1, _⟩ =>
    show win0_5.index ⟨16 * (i 0).val + 15, ht⟩ (1 : Fin 3) * 1 ≤ (i 1).val ∧ (i 1).val < win0_5.index ⟨16 * (i 0).val + 15, ht⟩ (1 : Fin 3) * 1 + 1
    rw [e1]; omega
  | ⟨2, _⟩ =>
    show win0_5.index ⟨16 * (i 0).val + 15, ht⟩ (2 : Fin 3) * 100 ≤ (i 2).val ∧ (i 2).val < win0_5.index ⟨16 * (i 0).val + 15, ht⟩ (2 : Fin 3) * 100 + 100
    rw [e2]; omega

/-- The partial-count array ends holding the two halves' partial counts. -/
theorem final5 (c : Dev nD) : (dats m 0 c).arrAt 5 cfg0.N = partCount (aH m c) :=
  (dats m 0 c).arrAt_eq_of_cover 5 (partCount (aH m c)) (flushed5_eq m c) cover5

end Cert.KernelIdeal.Arrays

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Tail.lean ====
/-
  The host operations that follow the kernel's one region, as one function of the region's three output arrays and
  the centres, and that function read at an index at the ideal values.

  The region leaves a table of two partial sums of shape [2, 100, 512], two partial counts of shape [2, 1, 100] and
  the row results of shape [65536].  The operations after it add the table's two halves, add the two counts and one,
  multiply the summed table by one half, divide by the counts (each class's count repeated along the 512 lanes) and
  subtract the quotient from the centres; the row results are recast as a column.  Every one of these operations is
  either pointwise or reads ONE element of its operand, so the value at (p, q) is

      Ce[p, q] - (half * (A4[0, p, q] + A4[1, p, q])) / ((A5[0, 0, p] + A5[1, 0, p]) + one),

  and the column at (r, 0) is the row result at r.  Each layout operation is read at an index written by its
  coordinates by one small lemma; the pointwise operations then read through by definition.
-/
import proofs.«102487_j2654289789633_2_alg».proof.Proof.Gen.KernelIdeal
import proofs.«102487_j2654289789633_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws
noncomputable section
open Idealize.ShloMosaic Idealize.ShloMosaic.ValueIdx
namespace Cert.KernelIdeal.Tail
open Cert.KernelIdeal Cert.KernelIdeal.Facts₀ Cert.KernelIdeal.Facts
variable {F : FTy → Type} [FloatOps F]
def resultOf (A3 : Vec F S65536 .f32) : Vec F S65536x1 .f32 := shapeCast S65536x1 A3 shapeCasts_S65536_S65536x1
def centersOf (A4 : Vec F S2x100x512 .f32) (A5 : Vec F S2x1x100 .f32) (Ce : Vec F S100x512 .f32) : Vec F S100x512 .f32 :=
  subf Ce (Host.divf
    (mulf (broadcastInDim S100x512 ![] bcast_S_S100x512 (constant S_ .f32 0x3F000000#32))
      (addf (shapeCast S100x512 (extractStridedSlice S1x100x512 ![0, 0, 0] A4 slices_S2x100x512_S1x100x512_0_0_0) shapeCasts_S1x100x512_S100x512)
            (shapeCast S100x512 (extractStridedSlice S1x100x512 ![1, 0, 0] A4 slices_S2x100x512_S1x100x512_1_0_0) shapeCasts_S1x100x512_S100x512)))
    (broadcastInDim S100x512 ![0, 1] bcast_S100x1_S100x512_0_1 (broadcastInDim S100x1 ![0] bcast_S100_S100x1_0
      (addf (addf (shapeCast S100 (extractStridedSlice S1x1x100 ![0, 0, 0] A5 slices_S2x1x100_S1x1x100_0_0_0) shapeCasts_S1x1x100_S100)
                  (shapeCast S100 (extractStridedSlice S1x1x100 ![1, 0, 0] A5 slices_S2x1x100_S1x1x100_1_0_0) shapeCasts_S1x1x100_S100))
            (broadcastInDim S100 ![] bcast_S_S100 (constant S_ .f32 0x3F800000#32))))))

/-! ## The layout operations read at an index -/

section Layout
variable {α : Type}

/-- The slice of a `[2, 100, 512]` table at offset `(0, 0, 0)` is its first half: at `(u, p, q)` it reads `(0, p, q)`. -/
theorem slice_table_fst (X : S2x100x512.Idx → α) (u : Fin 1) (p : Fin 100) (q : Fin 512) :
    extractStridedSlice S1x100x512 ![0, 0, 0] X slices_S2x100x512_S1x100x512_0_0_0 (ix3 u p q) = X (ix3 (0 : Fin 2) p q) :=
  extractStridedSlice_apply _ X _ (ix3 u p q) (ix3 (0 : Fin 2) p q) (fun a => by
    have hu : u.val = 0 := by omega
    match a with
    | ⟨0, _⟩ => show (0 : ℕ) = 0 + u.val; omega
    | ⟨1, _⟩ => exact (Nat.zero_add _).symm
    | ⟨2, _⟩ => exact (Nat.zero_add _).symm)

/-- The slice of a `[2, 100, 512]` table at offset `(1, 0, 0)` is its second half: at `(u, p, q)` it reads `(1, p, q)`. -/
theorem slice_table_snd (X : S2x100x512.Idx → α) (u : Fin 1) (p : Fin 100) (q : Fin 512) :
    extractStridedSlice S1x100x512 ![1, 0, 0] X slices_S2x100x512_S1x100x512_1_0_0 (ix3 u p q) = X (ix3 (1 : Fin 2) p q) :=
  extractStridedSlice_apply _ X _ (ix3 u p q) (ix3 (1 : Fin 2) p q) (fun a => by
    have hu : u.val = 0 := by omega
    match a with
    | ⟨0, _⟩ => show (1 : ℕ) = 1 + u.val; omega
    | ⟨1, _⟩ => exact (Nat.zero_add _).symm
    | ⟨2, _⟩ => exact (Nat.zero_add _).symm)

/-- The slice of the `[2, 1, 100]` counts at offset `(0, 0, 0)`: at `(u, v, p)` it reads `(0, v, p)`. -/
theorem slice_count_fst (X : S2x1x100.Idx → α) (u v : Fin 1) (p : Fin 100) :
    extractStridedSlice S1x1x100 ![0, 0, 0] X slices_S2x1x100_S1x1x100_0_0_0 (ix3 u v p) = X (ix3 (0 : Fin 2) v p) :=
  extractStridedSlice_apply _ X _ (ix3 u v p) (ix3 (0 : Fin 2) v p) (fun a => by
    have hu : u.val = 0 := by omega
    match a with
    | ⟨0, _⟩ => show (0 : ℕ) = 0 + u.val; omega
    | ⟨1, _⟩ => exact (Nat.zero_add _).symm
    | ⟨2, _⟩ => exact (Nat.zero_add _).symm)

/-- The slice of the `[2, 1, 100]` counts at offset `(1, 0, 0)`: at `(u, v, p)` it reads `(1, v, p)`. -/
theorem slice_count_snd (X : S2x1x100.Idx → α) (u v : Fin 1) (p : Fin 100) :
    extractStridedSlice S1x1x100 ![1, 0, 0] X slices_S2x1x100_S1x1x100_1_0_0 (ix3 u v p) = X (ix3 (1 : Fin 2) v p) :=
  extractStridedSlice_apply _ X _ (ix3 u v p) (ix3 (1 : Fin 2) v p) (fun a => by
    have hu : u.val = 0 := by omega
    match a with
    | ⟨0, _⟩ => show (1 : ℕ) = 1 + u.val; omega
    | ⟨1, _⟩ => exact (Nat.zero_add _).symm
    | ⟨2, _⟩ => exact (Nat.zero_add _).symm)

/-- A `[1, 1, a]` array cast to the vector `[a]` reads, at `i`, the operand at `(0, 0, i)`: the two leading unit axes
carry no row-major weight. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A scalar broadcast to `[100, 512]` reads the scalar everywhere. -/
theorem bcast_scalar_table (c : S_.Idx → α) (p : Fin 100) (q : Fin 512) :
    broadcastInDim S100x512 ![] bcast_S_S100x512 c (ix2 p q) = c ix0 :=
  broadcastInDim_apply _ bcast_S_S100x512 c (ix2 p q) ix0 (fun a => a.elim0)

/-- A scalar broadcast to `[100]` reads the scalar everywhere. -/
theorem bcast_scalar_vec (c : S_.Idx → α) (p : Fin 100) :
    broadcastInDim S100 ![] bcast_S_S100 c (ix1 p) = c ix0 :=
  broadcastInDim_apply _ bcast_S_S100 c (ix1 p) ix0 (fun a => a.elim0)

/-- A vector `[100]` broadcast to the column `[100, 1]` reads, at `(p, u)`, the operand at `p`. -/
theorem bcast_vec_column (y : S100.Idx → α) (p : Fin 100) (u : Fin 1) :
    broadcastInDim S100x1 ![0] bcast_S100_S100x1_0 y (ix2 p u) = y (ix1 p) :=
  broadcastInDim_apply _ bcast_S100_S100x1_0 y (ix2 p u) (ix1 p) (fun a => match a with
    | ⟨0, _⟩ => by show p.val = if (100 : ℕ) = 1 then 0 else p.val; rw [if_neg (by decide)])

/-- A column `[100, 1]` broadcast along the lanes to `[100, 512]` reads, at `(p, q)`, the operand at `(p, 0)`. -/
theorem bcast_column_table (y : S100x1.Idx → α) (p : Fin 100) (q : Fin 512) :
    broadcastInDim S100x512 ![0, 1] bcast_S100x1_S100x512_0_1 y (ix2 p q) = y (ix2 p (0 : Fin 1)) :=
  broadcastInDim_apply _ bcast_S100x1_S100x512_0_1 y (ix2 p q) (ix2 p (0 : Fin 1)) (fun a => match a with
    | ⟨0, _⟩ => by show p.val = if (100 : ℕ) = 1 then 0 else p.val; rw [if_neg (by decide)]
    | ⟨1, _⟩ => by show (0 : ℕ) = if (1 : ℕ) = 1 then 0 else q.val; rw [if_pos rfl])

end Layout

/-! ## The composed reads: each half of the table and each count, recast, at an index -/

/-- The first half of the table, recast `[1, 100, 512] → [100, 512]`, reads the table at `(0, p, q)`. -/
theorem table_fst_apply (A4 : Vec Ideal S2x100x512 .f32) (p : Fin 100) (q : Fin 512) :
    shapeCast S100x512 (extractStridedSlice S1x100x512 ![0, 0, 0] A4 slices_S2x100x512_S1x100x512_0_0_0)
      shapeCasts_S1x100x512_S100x512 (ix2 p q) = A4 (ix3 (0 : Fin 2) p q) :=
  (shapeCast_1ab_ab_apply _ shapeCasts_S1x100x512_S100x512 p q).trans (slice_table_fst A4 0 p q)

/-- The second half of the table, recast `[1, 100, 512] → [100, 512]`, reads the table at `(1, p, q)`. -/
theorem table_snd_apply (A4 : Vec Ideal S2x100x512 .f32) (p : Fin 100) (q : Fin 512) :
    shapeCast S100x512 (extractStridedSlice S1x100x512 ![1, 0, 0] A4 slices_S2x100x512_S1x100x512_1_0_0)
      shapeCasts_S1x100x512_S100x512 (ix2 p q) = A4 (ix3 (1 : Fin 2) p q) :=
  (shapeCast_1ab_ab_apply _ shapeCasts_S1x100x512_S100x512 p q).trans (slice_table_snd A4 0 p q)

/-- The first count, recast `[1, 1, 100] → [100]`, reads the counts at `(0, 0, p)`. -/
theorem count_fst_apply (A5 : Vec Ideal S2x1x100 .f32) (p : Fin 100) :
    shapeCast S100 (extractStridedSlice S1x1x100 ![0, 0, 0] A5 slices_S2x1x100_S1x1x100_0_0_0)
      shapeCasts_S1x1x100_S100 (ix1 p) = A5 (ix3 (0 : Fin 2) (0 : Fin 1) p) :=
  (shapeCast_11a_a_apply _ shapeCasts_S1x1x100_S100 p).trans (slice_count_fst A5 0 0 p)

/-- The second count, recast `[1, 1, 100] → [100]`, reads the counts at `(1, 0, p)`. -/
theorem count_snd_apply (A5 : Vec Ideal S2x1x100 .f32) (p : Fin 100) :
    shapeCast S100 (extractStridedSlice S1x1x100 ![1, 0, 0] A5 slices_S2x1x100_S1x1x100_1_0_0)
      shapeCasts_S1x1x100_S100 (ix1 p) = A5 (ix3 (1 : Fin 2) (0 : Fin 1) p) :=
  (shapeCast_11a_a_apply _ shapeCasts_S1x1x100_S100 p).trans (slice_count_snd A5 0 0 p)

/-! ## The two results at an index -/

/-- The row results recast as a column: the column at `(r, 0)` is the row result at `r`. -/
theorem resultOf_apply (A3 : Vec Ideal S65536 .f32) (i : S65536x1.Idx) : resultOf (F := Ideal) A3 i = A3 (ix1 (i 0)) := by
  obtain ⟨r, u, rfl⟩ : ∃ (r : Fin 65536) (u : Fin 1), i = ix2 r u := ⟨i 0, i 1, eq_ix2 i⟩
  exact PhysLoss.shapeCast_a_a1_apply A3 shapeCasts_S65536_S65536x1 r u

/-- The new centres at `(p, q)`: the centre minus one half of the two halves' sum, divided by the two counts' sum
plus one. -/
theorem centersOf_apply (A4 : Vec Ideal S2x100x512 .f32) (A5 : Vec Ideal S2x1x100 .f32) (Ce : Vec Ideal S100x512 .f32) (i : S100x512.Idx) :
    centersOf (F := Ideal) A4 A5 Ce i
      = Ce i - Ideal.div (Ideal.ofBits .f32 0x3F000000#32 * (A4 (ix3 (0 : Fin 2) (i 0) (i 1)) + A4 (ix3 (1 : Fin 2) (i 0) (i 1))))
          ((A5 (ix3 (0 : Fin 2) (0 : Fin 1) (i 0)) + A5 (ix3 (1 : Fin 2) (0 : Fin 1) (i 0))) + Ideal.ofBits .f32 0x3F800000#32) := by
  obtain ⟨p, q, rfl⟩ : ∃ (p : Fin 100) (q : Fin 512), i = ix2 p q := ⟨i 0, i 1, eq_ix2 i⟩
  unfold centersOf
  simp only [Host.divf, Ideal.hostDivf_def, subf_apply, mulf_apply, addf_apply]
  rw [bcast_scalar_table, bcast_column_table, bcast_vec_column]
  simp only [addf_apply]
  rw [bcast_scalar_vec, table_fst_apply, table_snd_apply, count_fst_apply, count_snd_apply]
  rfl
end Cert.KernelIdeal.Tail
end
-- ==== Proof.KernelRun.lean ====
/-
  The kernel's run with both results named.

  The operations after the region read the region's three output arrays and the centres, and their composed term is
  the same whatever the other buffers hold: so it is first read over an arbitrary valuation of the buffers, then at
  the region's exit, where the three arrays hold the row sums and the two halves' partial sums. Read at an index the
  composed term is the tile-by-tile arrangement of the specification.
-/
import proofs.«102487_j2654289789633_2_alg».proof.Proof.Arrays
import proofs.«102487_j2654289789633_2_alg».proof.Proof.Tail
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Tiles Cert.KernelIdeal.Arrays Cert.CenterLoss

/-! ## The operations after the region, over any contents of the buffers -/

section AnyValuation
variable {F : FTy → Type} [FloatOps F]

set_option maxHeartbeats 2000000 in
/-- The first result is the row-result array reshaped to a column. -/
theorem tail19_of (W : Valuation τ sig (Elt F)) :
    StableHlo.after hostOps1 W (Proc.devRef .tc main_v19) = Tail.resultOf (W (Proc.devRef .tc main_v0_0)) := by
  after_results
  rfl

set_option maxHeartbeats 2000000 in
/-- The second result is the tail's function of the two partial arrays and the centres. -/
theorem tail18_of (W : Valuation τ sig (Elt F)) :
    StableHlo.after hostOps1 W (Proc.devRef .tc main_v18)
      = Tail.centersOf (W (Proc.devRef .tc main_v0_1)) (W (Proc.devRef .tc main_v0_2)) (W (Proc.devRef .tc main_arg2)) := by
  after_results
  rfl

end AnyValuation

/-! ## At the region's exit, at the ideal values -/

variable (m : (ℓ : Loc nD τ sig) → Buf (Elt Ideal) ℓ) (ρ : Dev nD → PrngReg)

/-- The centres' array is an input: it ends as the region found it. -/
theorem final2 (c : Dev nD) : (dats m 0 c).arrAt 2 cfg0.N = aC m c :=
  ((dats m 0 c).arrAt_in 2 rfl _).trans (A_eq m c 2)

/-- The first result after the run: the rows' sums of squared differences, as a column. -/
theorem result19 (c : Dev nD) :
    Pipeline.afterTail₀ cfgs (dats m) 0 (V0 m) [hostOps1] c main_v19 = tileResult (aX m c) (aH m c) (aC m c) := by
  unfold Pipeline.afterTail₀
  refine (tail19_of _).trans ?_
  rw [Pipeline.withArrays_arr spec0 launch0.win.arr_inj c _ _ 3]
  show Tail.resultOf ((dats m 0 c).arrAt 3 cfg0.N) = _
  rw [final3 m c]
  funext i
  rw [Tail.resultOf_apply]
  rfl

/-- The second result after the run: the tile-by-tile arrangement of the updated centres. -/
theorem result18 (c : Dev nD) :
    Pipeline.afterTail₀ cfgs (dats m) 0 (V0 m) [hostOps1] c main_v18 = tileCenters (aX m c) (aH m c) (aC m c) := by
  unfold Pipeline.afterTail₀
  refine (tail18_of _).trans ?_
  rw [Pipeline.withArrays_arr spec0 launch0.win.arr_inj c _ _ 4, Pipeline.withArrays_arr spec0 launch0.win.arr_inj c _ _ 5,
    Pipeline.withArrays_arr spec0 launch0.win.arr_inj c _ _ 2]
  show Tail.centersOf ((dats m 0 c).arrAt 4 cfg0.N) ((dats m 0 c).arrAt 5 cfg0.N) ((dats m 0 c).arrAt 2 cfg0.N) = _
  rw [final4 m c, final5 m c, final2 m c]
  funext i
  rw [Tail.centersOf_apply]
  rfl

/-- Neither result buffer is an array of the region. -/
theorem mem19 : main_v19 ∈ Pipeline.restRefs sig (cfgs 0).spec :=
  Pipeline.mem_restRefs_of main_v19 rfl (by decide)
theorem mem18 : main_v18 ∈ Pipeline.restRefs sig (cfgs 0).spec :=
  Pipeline.mem_restRefs_of main_v18 rfl (by decide)

/-- THE RUN: every weakly fair execution of the idealized kernel ends with the two results at the tile-by-tile
    arrangement of the argument arrays, and the arguments unchanged. -/
theorem run : θ_run defs (onTc (τ := τ) (main (F := Ideal))) ⟨m, fun _ => 0, ρ⟩ fun r => ∀ c : Dev nD,
      r.2.mem ((c.tc : Thread nD τ).loc main_v19) = tileResult (aX m c) (aH m c) (aC m c)
      ∧ r.2.mem ((c.tc : Thread nD τ).loc main_v18) = tileCenters (aX m c) (aH m c) (aC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v19 mem19).trans (result19 m c),
     ((h c).2 main_v18 mem18).trans (result18 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.KRun

end
-- ==== Proof.RefValue.lean ====
/-
  The program that sums all rows at once, read index by index: its two results are the all-rows-at-once
  arrangement of the specification.

  * The first result at row b is the zero word plus the sum over the 512 lanes d of (X[b,d] - sel b d)², where
    sel b d = ∑_c H[b,c] · Ce[c,d] is the row of H against the column of Ce.
  * The second at (c, d) is Ce[c,d] minus a half of the quotient of ∑_b H[b,c] · (sel b d - X[b,d]) by
    (the zero word + ∑_b H[b,c]) + 1: the transposed H against the differences, over the column sum of H plus one.

  Each layout operation (transpose, the broadcasts, the two contractions' operand indices, the two sums' operand
  indices) reads its operand at an index that is a pair of coordinates of the result's index; the index equations
  below say which pair.
-/
import proofs.«102487_j2654289789633_2_alg».proof.Proof.Spec
import proofs.«102487_j2654289789633_2_alg».proof.Proof.Gen.ReferenceIdeal.Read
noncomputable section
open Idealize.ShloMosaic Idealize.ShloMosaic.ValueIdx
namespace Cert.ReferenceIdeal.RefValue
open Cert.ReferenceIdeal Cert.ReferenceIdeal.Read Cert.CenterLoss

/-! ## Where each layout operation reads its operand -/

/-- Row b's lane sum reads the squares at (b, k). -/
private theorem idx_rowsum (b : Fin 65536) (q : Fin 1) (k : Fin 512) :
    idx_main_v15 (idx_main_v16 (ix2 b q)) k = ix2 b k :=
  funext fun a => Fin.ext (by match a with | ⟨0, _⟩ => rfl | ⟨1, _⟩ => rfl)

/-- The selected centre at (b, d) reads H at (b, j) … -/
private theorem lidx_sel (b : Fin 65536) (d : Fin 512) (j : Fin 100) :
    lidx_main_v0 (ix2 b d) j = ix2 b j :=
  funext fun a => Fin.ext (by match a with | ⟨0, _⟩ => rfl | ⟨1, _⟩ => rfl)

/-- … and Ce at (j, d). -/
private theorem ridx_sel (b : Fin 65536) (d : Fin 512) (j : Fin 100) :
    ridx_main_v0 (ix2 b d) j = ix2 j d :=
  funext fun a => Fin.ext (by match a with | ⟨0, _⟩ => rfl | ⟨1, _⟩ => rfl)

/-- The class sum at (c, d) reads the transposed H at (c, b), that is H at (b, c) … -/
private theorem lidx_class (c : Fin 100) (d : Fin 512) (b : Fin 65536) :
    idx_main_v2 (lidx_main_v3 (ix2 c d) b) = ix2 b c :=
  funext fun a => Fin.ext (by match a with | ⟨0, _⟩ => rfl | ⟨1, _⟩ => rfl)

/-- … and the differences at (b, d). -/
private theorem ridx_class (c : Fin 100) (d : Fin 512) (b : Fin 65536) :
    ridx_main_v3 (ix2 c d) b = ix2 b d :=
  funext fun a => Fin.ext (by match a with | ⟨0, _⟩ => rfl | ⟨1, _⟩ => rfl)

/-- The count at (c, d), a column sum of H broadcast along the lanes, reads H at (b, c). -/
private theorem idx_count (c : Fin 100) (d : Fin 512) (b : Fin 65536) :
    idx_main_v4 (idx_main_v5 (idx_main_v8 (ix2 c d))) b = ix2 b c :=
  funext fun a => Fin.ext (by match a with | ⟨0, _⟩ => rfl | ⟨1, _⟩ => rfl)

/-! ## The two results -/

/-- The first result: the row's sum of squares of (feature minus selected centre), from the zero word. -/
theorem result_eq (X : ArrX) (H : ArrH) (Ce : ArrC) : val_main_v16 (F := Ideal) X H Ce = refResult X H Ce := by
  funext i
  obtain ⟨b, q, rfl⟩ : ∃ (b : Fin 65536) (q : Fin 1), i = ix2 b q := ⟨i 0, i 1, eq_ix2 i⟩
  rw [val_main_v16_apply, val_main_v15_apply, val_main_cst_2_apply]
  simp only [val_main_v14_apply, val_main_v13_apply, val_main_v0_apply, idx_rowsum, lidx_sel, ridx_sel,
    Ideal.subf_def, Ideal.mulf_def, Ideal.ofBits_def]
  unfold refResult sel
  rfl

/-- The second result: the centre minus a half of (the class's summed differences over its count plus one). -/
theorem centers_eq (X : ArrX) (H : ArrH) (Ce : ArrC) : val_main_v12 (F := Ideal) X H Ce = refCenters X H Ce := by
  funext i
  obtain ⟨c, d, rfl⟩ : ∃ (c : Fin 100) (d : Fin 512), i = ix2 c d := ⟨i 0, i 1, eq_ix2 i⟩
  rw [val_main_v12_apply, val_main_v11_apply, val_main_v10_apply, val_main_cst_1_apply, val_main_v9_apply,
    val_main_v3_apply, val_main_v8_apply, val_main_v7_apply, val_main_v5_apply, val_main_v4_apply,
    val_main_v6_apply, val_main_cst_0_apply, val_main_cst_apply]
  simp only [val_main_v2_apply, val_main_v1_apply, val_main_v0_apply, lidx_class, ridx_class, idx_count,
    lidx_sel, ridx_sel, Ideal.subf_def, Ideal.mulf_def, Ideal.addf_def, Ideal.hostDivf_def, Ideal.ofBits_def]
  unfold refCenters dif sel
  rfl

end Cert.ReferenceIdeal.RefValue
end
-- ==== Proof.ErealLaws.lean ====
/-
  Two laws of the extended reals, on ALL of them (no finiteness anywhere), that join the two programs:
  a squared difference read in either order, and a positive real factor moved across the
  extended-real quotient (whose value at a zero divisor is the infinity of the dividend's sign).
-/
import Idealize.ShloMosaic.PureOps.Ideal

namespace Cert.CenterLoss

open Idealize.ShloMosaic

/-- A squared difference does not depend on the order of its two terms. On the reals this is
    `(x - y)² = (y - x)²`. When exactly one term is infinite, or the two are infinities of opposite
    sign, the two differences are the two infinities, and `⊤ · ⊤ = ⊥ · ⊥ = ⊤`. When both are the same
    infinity both differences are `⊥` (the convention `⊤ + ⊥ = ⊥`). -/
theorem sub_mul_self_comm (x y : EReal) : (x - y) * (x - y) = (y - x) * (y - x) := by
  induction x using EReal.rec with
  | bot =>
    induction y using EReal.rec with
    | bot => rfl
    | coe y => simp
    | top => simp
  | coe x =>
    induction y using EReal.rec with
    | bot => simp
    | coe y =>
      rw [← EReal.coe_sub, ← EReal.coe_sub, ← EReal.coe_mul, ← EReal.coe_mul]
      congr 1
      ring
    | top => simp
  | top =>
    induction y using EReal.rec with
    | bot => simp
    | coe y => simp
    | top => rfl

/-- A positive real factor moves across the quotient: `(a · x) / y = a · (x / y)` for every extended
    real `x`, `y`. Off a zero divisor the quotient is the product with the inverse, and the product is
    associative. At a zero divisor it is `⊤` when the dividend is positive and `⊥` otherwise; the factor
    `a > 0` keeps the dividend's sign and fixes both infinities. -/
theorem div_pos_mul {a : ℝ} (ha : 0 < a) (x y : EReal) :
    Ideal.div ((a : EReal) * x) y = (a : EReal) * Ideal.div x y := by
  have hpos : (0 : EReal) < (a : EReal) := by exact_mod_cast ha
  unfold Ideal.div
  by_cases hy : y = 0
  · rw [if_pos hy, if_pos hy]
    by_cases hx : 0 < x
    · rw [if_pos hx, if_pos (EReal.mul_pos_iff.2 (Or.inl ⟨hpos, hx⟩))]
      exact (EReal.coe_mul_top_of_pos ha).symm
    · have hnot : ¬ (0 : EReal) < (a : EReal) * x := by
        intro h
        rcases EReal.mul_pos_iff.1 h with ⟨_, h'⟩ | ⟨h', _⟩
        · exact hx h'
        · exact absurd h' (not_lt.2 hpos.le)
      rw [if_neg hx, if_neg hnot]
      exact (EReal.coe_mul_bot_of_pos ha).symm
  · rw [if_neg hy, if_neg hy]
    exact mul_assoc _ _ _

end Cert.CenterLoss
-- ==== Proof.Bridge.lean ====
/-
  The two arrangements of the two results agree, on all extended reals (no finiteness anywhere).

  * The row sums of squares differ only in the order of each squared difference and in a leading zero.
  * For the centres, the rows 0 … 65535 are read as 32 consecutive tiles of 2048 rows, and the 32 tiles as 2 halves of
    16. A sum over a range of length A·B is the sum, over the A consecutive blocks, of each block's B terms: addition on
    the extended reals is commutative and associative, so this regrouping needs no finiteness. Hence the two halves'
    partial sums add up to the sum over all rows, for the summed differences and for the counts alike. What is left is
    the half: 0.5 is a positive real, and a positive real factor moves across the quotient.
-/
import proofs.«102487_j2654289789633_2_alg».proof.Proof.Spec
import proofs.«102487_j2654289789633_2_alg».proof.Proof.ErealLaws
import Idealize.ShloMosaic.PureOps.Ideal.Laws

noncomputable section

open Idealize.ShloMosaic Idealize.ShloMosaic.ValueIdx

namespace Cert.CenterLoss

/-! ## Sums over ranges, regrouped into consecutive blocks -/

/-- A sum over the first `A * B` naturals is the sum over `A` consecutive blocks of the `B` terms of each block:
    block `a` holds the naturals `a * B + r`, `r < B`. By induction on the number of blocks. -/
theorem sum_range_mul (f : ℕ → EReal) (A B : ℕ) :
    ∑ b ∈ Finset.range (A * B), f b = ∑ a ∈ Finset.range A, ∑ r ∈ Finset.range B, f (a * B + r) := by
  induction A with
  | zero => simp
  | succ A ih => rw [Nat.add_one_mul, Finset.sum_range_add, ih, Finset.sum_range_succ]

/-- The 65536 rows as 32 tiles of 2048. -/
theorem sum_range_tiles (f : ℕ → EReal) :
    ∑ b ∈ Finset.range 65536, f b = ∑ s ∈ Finset.range 32, ∑ r ∈ Finset.range 2048, f (s * 2048 + r) :=
  sum_range_mul f 32 2048

/-- The 32 tiles as 2 halves of 16: half `q` holds the tiles `16 * q + j`, `j < 16`. -/
theorem sum_halves (g : ℕ → EReal) :
    (∑ j ∈ Finset.range 16, g (16 * 0 + j)) + (∑ j ∈ Finset.range 16, g (16 * 1 + j))
      = ∑ s ∈ Finset.range 32, g s := by
  have h : ∑ s ∈ Finset.range 32, g s = ∑ q ∈ Finset.range 2, ∑ j ∈ Finset.range 16, g (q * 16 + j) :=
    sum_range_mul g 2 16
  have two : ∀ G : ℕ → EReal, ∑ q ∈ Finset.range 2, G q = G 0 + G 1 := fun G => by
    rw [Finset.sum_range_succ, Finset.sum_range_one]
  rw [h, two]

/-- A function of the row, summed tile by tile over the two halves, is summed over all 65536 rows: every row
    `(16 * q + j) * 2048 + r` with `q < 2`, `j < 16`, `r < 2048` is met exactly once. -/
theorem sum_two_halves (g : ℕ → EReal) :
    (∑ j ∈ Finset.range 16, ∑ r : Fin 2048, g ((16 * 0 + j) * 2048 + r.val))
      + (∑ j ∈ Finset.range 16, ∑ r : Fin 2048, g ((16 * 1 + j) * 2048 + r.val))
      = ∑ b : Fin 65536, g b.val := by
  have e : ∀ s : ℕ, ∑ r : Fin 2048, g (s * 2048 + r.val) = ∑ r ∈ Finset.range 2048, g (s * 2048 + r) :=
    fun s => Fin.sum_univ_eq_sum_range (fun r => g (s * 2048 + r)) 2048
  simp only [e]
  rw [Fin.sum_univ_eq_sum_range g 65536, sum_range_tiles g]
  exact sum_halves (fun s => ∑ r ∈ Finset.range 2048, g (s * 2048 + r))

/-! ## The two halves' partial sums are the sums over all rows -/

variable (X : ArrX) (H : ArrH) (Ce : ArrC)

/-- The two halves' partial summed differences add up to the class's summed differences over all rows. -/
theorem halfDelta_add (c : Fin 100) (d : Fin 512) :
    halfDelta X H Ce 0 c d + halfDelta X H Ce 1 c d = ∑ b : Fin 65536, H (ix2 b c) * dif X H Ce b d := by
  have h := sum_two_halves (fun n => Hn H n c * difn X H Ce n d)
  have hb : ∀ b : Fin 65536, Hn H b.val c * difn X H Ce b.val d = H (ix2 b c) * dif X H Ce b d := by
    intro b
    unfold Hn difn
    rw [dif_pos b.isLt, dif_pos b.isLt]
  simp only [hb] at h
  unfold halfDelta tileDelta
  exact h

/-- The two halves' partial counts add up to the class's count over all rows. -/
theorem halfCount_add (c : Fin 100) :
    halfCount H 0 c + halfCount H 1 c = ∑ b : Fin 65536, H (ix2 b c) := by
  have h := sum_two_halves (fun n => Hn H n c)
  have hb : ∀ b : Fin 65536, Hn H b.val c = H (ix2 b c) := by
    intro b
    unfold Hn
    rw [dif_pos b.isLt]
  simp only [hb] at h
  unfold halfCount tileCount
  exact h

/-! ## The half -/

/-- The word 0.5 (sign 0, exponent 126, fraction 0) denotes the real `2^23 · 2^(126 - 127 - 23) = 1/2`. -/
theorem halfW_eq : Ideal.ofBits .f32 0x3F000000#32 = ((1 / 2 : ℝ) : EReal) := by
  simp [Ideal.ofBits, Ideal.ieee, -EReal.coe_mul]; norm_num

/-! ## The two results -/

/-- The row sums of squares at a row: each squared difference in either order, and the leading zero dropped. -/
theorem tileResult_at (b : Fin 65536) (z : Fin 1) :
    tileResult X H Ce (ix2 b z) = refResult X H Ce (ix2 b z) := by
  show ∑ d : Fin 512, dif X H Ce b d * dif X H Ce b d
    = zeroW + ∑ d : Fin 512, (X (ix2 b d) - sel H Ce b d) * (X (ix2 b d) - sel H Ce b d)
  rw [show zeroW = 0 from Ideal.ofBits_zero_f32, zero_add]
  unfold dif
  exact Finset.sum_congr rfl (fun d _ => sub_mul_self_comm _ _)

/-- The centres at a class and a lane: the halves regrouped, the leading zero of the count dropped, and the half
    moved from the dividend to the quotient. -/
theorem tileCenters_at (c : Fin 100) (d : Fin 512) :
    tileCenters X H Ce (ix2 c d) = refCenters X H Ce (ix2 c d) := by
  show Ce (ix2 c d) - Ideal.div (halfW * (halfDelta X H Ce 0 c d + halfDelta X H Ce 1 c d))
      ((halfCount H 0 c + halfCount H 1 c) + oneW)
    = Ce (ix2 c d) - halfW * Ideal.div (∑ b : Fin 65536, H (ix2 b c) * dif X H Ce b d)
      ((zeroW + ∑ b : Fin 65536, H (ix2 b c)) + oneW)
  rw [halfDelta_add, halfCount_add, show zeroW = 0 from Ideal.ofBits_zero_f32, zero_add,
    show halfW = ((1 / 2 : ℝ) : EReal) from halfW_eq, div_pos_mul (by norm_num : (0 : ℝ) < 1 / 2)]

theorem tileResult_eq_ref (X : ArrX) (H : ArrH) (Ce : ArrC) : tileResult X H Ce = refResult X H Ce := by
  funext i
  obtain ⟨b, z, rfl⟩ : ∃ (b : Fin 65536) (z : Fin 1), i = ix2 b z := ⟨i 0, i 1, eq_ix2 i⟩
  exact tileResult_at X H Ce b z

theorem tileCenters_eq_ref (X : ArrX) (H : ArrH) (Ce : ArrC) : tileCenters X H Ce = refCenters X H Ce := by
  funext i
  obtain ⟨c, d, rfl⟩ : ∃ (c : Fin 100) (d : Fin 512), i = ix2 c d := ⟨i 0, i 1, eq_ix2 i⟩
  exact tileCenters_at X H Ce c d

end Cert.CenterLoss

end
-- ==== Proof.lean ====
/-
  The certificate: a kernel that computes, for features X [65536, 512], a one-hot matrix H [65536, 100] and centres
  Ce [100, 512], each row's squared distance to its selected centre and the centres updated by the per-class mean
  difference, against the plain array program computing the same.

  With  sel b d = ∑_c H[b,c] · Ce[c,d]  and  dif = sel - X:
    result[b]        = ∑_d dif[b,d]²                                    (one program squares sel - X, the other X - sel);
    new_centers[c,d] = Ce[c,d] - half of (∑_b H[b,c] · dif[b,d]) over (∑_b H[b,c] + 1)
                                                                         (one halves the dividend, the other the quotient).
  The kernel sums the 65536 rows as 2 halves of 16 tiles of 2048 rows, carrying two running sums from tile to tile
  and writing each half's partial sums out at the half's last tile; the operations after it add the two halves.
  The array program sums all rows at once.

  At the ideal values (floats as extended reals, every operation exact) the two agree for EVERY input, finite or not:
  addition on the extended reals is commutative and associative, so any regrouping of a sum is the same sum; a squared
  difference does not depend on the order of its terms; and a positive real factor moves across the quotient, also at
  a zero divisor, where the quotient is the infinity of the dividend's sign. The precondition is not used.

  The three frames: the two kernel programs' are the generated frame proofs; the array program's is its generated run
  with the results dropped. The idealization rewrote no operation, so there is nothing to preserve.
-/
import proofs.«102487_j2654289789633_2_alg».proof.Defs
import proofs.«102487_j2654289789633_2_alg».proof.Proof.Gen.Kernel
import proofs.«102487_j2654289789633_2_alg».proof.Proof.Gen.Kernel.Skeleton
import proofs.«102487_j2654289789633_2_alg».proof.Proof.Gen.Kernel.Launch
import proofs.«102487_j2654289789633_2_alg».proof.Proof.Gen.Kernel.Points
import proofs.«102487_j2654289789633_2_alg».proof.Proof.Gen.Kernel.Frame
import proofs.«102487_j2654289789633_2_alg».proof.Proof.Gen.KernelIdeal
import proofs.«102487_j2654289789633_2_alg».proof.Proof.Gen.KernelIdeal.Skeleton
import proofs.«102487_j2654289789633_2_alg».proof.Proof.Gen.KernelIdeal.Launch
import proofs.«102487_j2654289789633_2_alg».proof.Proof.Gen.KernelIdeal.Points
import proofs.«102487_j2654289789633_2_alg».proof.Proof.Gen.KernelIdeal.Frame
import proofs.«102487_j2654289789633_2_alg».proof.Proof.Gen.ReferenceIdeal
import proofs.«102487_j2654289789633_2_alg».proof.Proof.Gen.ReferenceIdeal.Run
import proofs.«102487_j2654289789633_2_alg».proof.Proof.Gen.ReferenceIdeal.Read
import proofs.«102487_j2654289789633_2_alg».proof.Proof.Gen.Pre_finite_inputs
import proofs.«102487_j2654289789633_2_alg».proof.Proof.KernelRun
import proofs.«102487_j2654289789633_2_alg».proof.Proof.RefValue
import proofs.«102487_j2654289789633_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The array program's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- At the ideal values the kernel ends with its two results at the tile-by-tile arrangement of its arguments and the
    array program with its two at the all-rows-at-once arrangement of arguments that agree: one pair of functions. -/
theorem algebraic : Cert.algebraic_KernelIdeal_ReferenceIdeal := by
  intro m ρ m' ρ' _ hagree
  refine ⟨fun c => Cert.CenterLoss.tileResult (Cert.KernelIdeal.Tiles.aX m c) (Cert.KernelIdeal.Tiles.aH m c) (Cert.KernelIdeal.Tiles.aC m c),
    fun c => Cert.CenterLoss.tileCenters (Cert.KernelIdeal.Tiles.aX m c) (Cert.KernelIdeal.Tiles.aH m c) (Cert.KernelIdeal.Tiles.aC m c),
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v16_eq, Cert.ReferenceIdeal.RefValue.result_eq, (hagree c).1, (hagree c).2.1, (hagree c).2.2]
    exact (Cert.CenterLoss.tileResult_eq_ref _ _ _).symm
  · rw [Cert.ReferenceIdeal.Read.val_main_v12_eq, Cert.ReferenceIdeal.RefValue.centers_eq, (hagree c).1, (hagree c).2.1, (hagree c).2.2]
    exact (Cert.CenterLoss.tileCenters_eq_ref _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
